-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1152x32 : Shape := ⟨3, ![32, 1152, 32]⟩
abbrev S64x32x32 : Shape := ⟨3, ![64, 32, 32]⟩
abbrev S_ : Shape := ⟨0, ![]⟩

class Facts : Prop where
  bcast_S_S32x1152x32 : S_.BroadcastsInDim S32x1152x32 (![] : Fin 0 → Fin S32x1152x32.rank)
  reducesTo_S32x1152x32_S_d0_1_2 : S32x1152x32.ReducesTo [0, 1, 2] S_
  h_S_ : 0 < S_.numel
  bcast_S_S64x32x32 : S_.BroadcastsInDim S64x32x32 (![] : Fin 0 → Fin S64x32x32.rank)
  reducesTo_S64x32x32_S_d0_1_2 : S64x32x32.ReducesTo [0, 1, 2] S_

variable [Facts]

def fn {F : FTy → Type} [FloatOps F] (main_arg0 : FVec F S32x1152x32 .f32) (main_arg1 : FVec F S64x32x32 .f32) : IVec S_ 1 :=
  let main_v0 : FVec F S32x1152x32 .f32 := Host.absf main_arg0
  let main_cst : FVec F S_ .f32 := constant S_ .f32 0x7F800000#32
  let main_v1 : FVec F S32x1152x32 .f32 := broadcastInDim S32x1152x32 ![] bcast_S_S32x1152x32 main_cst
  let main_v2 : IVec S32x1152x32 1 := cmpf .olt main_v0 main_v1
  let main_c : IVec S_ 1 := constantI S_ 1 1#1
  let main_v3 : IVec S_ 1 := (fun x v => Host.reduce IntOp.andi x v reducesTo_S32x1152x32_S_d0_1_2 h_S_) main_v2 main_c
  let main_v4 : FVec F S64x32x32 .f32 := Host.absf main_arg1
  let main_cst_0 : FVec F S_ .f32 := constant S_ .f32 0x7F800000#32
  let main_v5 : FVec F S64x32x32 .f32 := broadcastInDim S64x32x32 ![] bcast_S_S64x32x32 main_cst_0
  let main_v6 : IVec S64x32x32 1 := cmpf .olt main_v4 main_v5
  let main_c_1 : IVec S_ 1 := constantI S_ 1 1#1
  let main_v7 : IVec S_ 1 := (fun x v => Host.reduce IntOp.andi x v reducesTo_S64x32x32_S_d0_1_2 h_S_) main_v6 main_c_1
  let main_v8 : IVec S_ 1 := andi main_v3 main_v7
  main_v8
-- ==== Kernel.lean ====
abbrev S32x1152x32 : Shape := ⟨3, ![32, 1152, 32]⟩
abbrev S64x32x32 : Shape := ⟨3, ![64, 32, 32]⟩
abbrev S2048x32 : Shape := ⟨2, ![2048, 32]⟩
abbrev S32x64x32 : Shape := ⟨3, ![32, 64, 32]⟩
abbrev S1x1152x32 : Shape := ⟨3, ![1, 1152, 32]⟩
abbrev S1x64x32 : Shape := ⟨3, ![1, 64, 32]⟩
abbrev S64x32x1152 : Shape := ⟨3, ![64, 32, 1152]⟩
abbrev S1152x32 : Shape := ⟨2, ![1152, 32]⟩
abbrev S2048x1152 : Shape := ⟨2, ![2048, 1152]⟩
abbrev S64x1152 : Shape := ⟨2, ![64, 1152]⟩
abbrev S64x32 : Shape := ⟨2, ![64, 32]⟩
abbrev S64 : Shape := ⟨1, ![64]⟩
abbrev S64x1 : Shape := ⟨2, ![64, 1]⟩
abbrev S64x1x32 : Shape := ⟨3, ![64, 1, 32]⟩
abbrev S64x1x1152 : Shape := ⟨3, ![64, 1, 1152]⟩
abbrev S1152 : Shape := ⟨1, ![1152]⟩
abbrev S1x1152 : Shape := ⟨2, ![1, 1152]⟩
abbrev S64x1152x1 : Shape := ⟨3, ![64, 1152, 1]⟩
abbrev S64x32x1 : Shape := ⟨3, ![64, 32, 1]⟩

abbrev nBuf : Space → Nat
  | .hbm => 4
  | .vmem => 6
  | .smem => 0
  | _ => 0

abbrev bufTy : (tb : Table) → Fin (tcTables nBuf tb) → BufTy
  | .hbm, ⟨0, _⟩ => ⟨S32x1152x32, .f32⟩
  | .hbm, ⟨1, _⟩ => ⟨S64x32x32, .f32⟩
  | .hbm, ⟨2, _⟩ => ⟨S2048x32, .f32⟩
  | .hbm, ⟨3, _⟩ => ⟨S32x64x32, .f32⟩
  | .local _ .vmem, ⟨0, _⟩ => ⟨S1x1152x32, .f32⟩
  | .local _ .vmem, ⟨1, _⟩ => ⟨S1x1152x32, .f32⟩
  | .local _ .vmem, ⟨2, _⟩ => ⟨S2048x32, .f32⟩
  | .local _ .vmem, ⟨3, _⟩ => ⟨S1x64x32, .f32⟩
  | .local _ .vmem, ⟨4, _⟩ => ⟨S1x64x32, .f32⟩
  | .local _ .vmem, ⟨5, _⟩ => ⟨S64x32x1152, .f32⟩
  | _, _ => ⟨S32x1152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1152x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x32x32_S2048x32 : S64x32x32.ShapeCasts S2048x32
  inb_S1x1152x32_S1x1152x32_0_0_0 : ∀ a, (![0, 0, 0] : Fin 3 → Nat) a + S1x1152x32.size a ≤ S1x1152x32.size a
  h_S1x1152x32 : 0 < S1x1152x32.numel
  shapeCasts_S1x1152x32_S1152x32 : S1x1152x32.ShapeCasts S1152x32
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S2048x1152_S64x32x1152 : S2048x1152.ShapeCasts S64x32x1152
  inb_S64x32x1152_S64x32x1152_0_0_0 : ∀ a, (![0, 0, 0] : Fin 3 → Nat) a + S64x32x1152.size a ≤ S64x32x1152.size a
  h_S64x32x1152 : 0 < S64x32x1152.numel
  shapeCasts_S64x32x1152_S64x32x1152 : S64x32x1152.ShapeCasts S64x32x1152
  reduces_S64x32x1152_S64x32 : S64x32x1152.Reduces [2] S64x32
  reduces_S64x32_S64 : S64x32.Reduces [1] S64
  shapeCasts_S64_S64x1 : S64.ShapeCasts S64x1
  broadcasts_S64x1_S64x32 : S64x1.Broadcasts S64x32
  shapeCasts_S64x32_S64x1x32 : S64x32.ShapeCasts S64x1x32
  shapeCasts_S64x1x1152_S64x1152 : S64x1x1152.ShapeCasts S64x1152
  reduces_S64x1152_S1152 : S64x1152.Reduces [0] S1152
  shapeCasts_S1152_S1x1152 : S1152.ShapeCasts S1x1152
  broadcasts_S1x1152_S64x1152 : S1x1152.Broadcasts S64x1152
  shapeCasts_S64x1152_S64x1152x1 : S64x1152.ShapeCasts S64x1152x1
  shapeCasts_S64x32x1_S64x32 : S64x32x1.ShapeCasts S64x32
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S1x64x32 : S64x32.ShapeCasts S1x64x32
  dot_S2048x32_S1152x32_S2048x1152_1_1_0_0_n_n_wf : DotDims.WF S2048x32 S1152x32 S2048x1152 [1] [1] [0] [0] [] []
  dot_S64x1x32_S64x32x1152_S64x1x1152_2_1_1_2_0_0_wf : DotDims.WF S64x1x32 S64x32x1152 S64x1x1152 [2] [1] [1] [2] [0] [0]
  dot_S64x32x1152_S64x1152x1_S64x32x1_2_1_1_2_0_0_wf : DotDims.WF S64x32x1152 S64x1152x1 S64x32x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1152x32.size a ≤ S32x1152x32.size a
  hwx0_0 : ∀ i : grid0.Coords, EltTy.bits .f32 = 32 ∨ (Rect.block (s := S32x1152x32) S1x1152x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S2048x32.size a
  hwx0_1 : ∀ i : grid0.Coords, EltTy.bits .f32 = 32 ∨ (Rect.block (s := S2048x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32.size a ≤ S32x64x32.size a
  hwx0_2 : ∀ i : grid0.Coords, EltTy.bits .f32 = 32 ∨ (Rect.block (s := S32x64x32) S1x64x32.size (cc0_transform_2 i) (hinb0_2 i)).WholeWords (EltTy.packing .f32)

variable [Facts₀]

def dot_S2048x32_S1152x32_S2048x1152_1_1_0_0_n_n : DotDims S2048x32 S1152x32 S2048x1152 where
  lhsContracting := [1]
  rhsContracting := [1]
  lhsNonContracting := [0]
  rhsNonContracting := [0]
  lhsBatch := []
  rhsBatch := []
  wf := dot_S2048x32_S1152x32_S2048x1152_1_1_0_0_n_n_wf
def dot_S64x1x32_S64x32x1152_S64x1x1152_2_1_1_2_0_0 : DotDims S64x1x32 S64x32x1152 S64x1x1152 where
  lhsContracting := [2]
  rhsContracting := [1]
  lhsNonContracting := [1]
  rhsNonContracting := [2]
  lhsBatch := [0]
  rhsBatch := [0]
  wf := dot_S64x1x32_S64x32x1152_S64x1x1152_2_1_1_2_0_0_wf
def dot_S64x32x1152_S64x1152x1_S64x32x1_2_1_1_2_0_0 : DotDims S64x32x1152 S64x1152x1 S64x32x1 where
  lhsContracting := [2]
  rhsContracting := [1]
  lhsNonContracting := [1]
  rhsNonContracting := [2]
  lhsBatch := [0]
  rhsBatch := [0]
  wf := dot_S64x32x1152_S64x1152x1_S64x32x1_2_1_1_2_0_0_wf

abbrev win0_0 : Pipeline.Window sig grid0 :=
  Pipeline.Window.ofSpec (Memref.whole main_arg0) S1x1152x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1152x32 : Shape := ⟨3, ![32, 1152, 32]⟩
abbrev S64x32x32 : Shape := ⟨3, ![64, 32, 32]⟩
abbrev S32x1152x64x32 : Shape := ⟨4, ![32, 1152, 64, 32]⟩
abbrev S32x64x1152x32 : Shape := ⟨4, ![32, 64, 1152, 32]⟩
abbrev S_ : Shape := ⟨0, ![]⟩
abbrev S32x1x1152x32 : Shape := ⟨4, ![32, 1, 1152, 32]⟩
abbrev S32x64x32 : Shape := ⟨3, ![32, 64, 32]⟩
abbrev S32x64x1x32 : Shape := ⟨4, ![32, 64, 1, 32]⟩
abbrev S32x64x1 : Shape := ⟨3, ![32, 64, 1]⟩
abbrev S32x64x1x1 : Shape := ⟨4, ![32, 64, 1, 1]⟩
abbrev S32x64x1152 : Shape := ⟨3, ![32, 64, 1152]⟩
abbrev S32x64x1152x1 : Shape := ⟨4, ![32, 64, 1152, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x1152x32, .f32⟩
  | .hbm, ⟨1, _⟩ => ⟨S64x32x32, .f32⟩
  | .hbm, ⟨2, _⟩ => ⟨S32x1152x64x32, .f32⟩
  | .hbm, ⟨3, _⟩ => ⟨S32x64x1152x32, .f32⟩
  | .hbm, ⟨4, _⟩ => ⟨S_, .f32⟩
  | .hbm, ⟨5, _⟩ => ⟨S32x64x1152x32, .f32⟩
  | .hbm, ⟨6, _⟩ => ⟨S_, .f32⟩
  | .hbm, ⟨7, _⟩ => ⟨S32x1152x32, .f32⟩
  | .hbm, ⟨8, _⟩ => ⟨S_, .f32⟩
  | .hbm, ⟨9, _⟩ => ⟨S32x1152x32, .f32⟩
  | .hbm, ⟨10, _⟩ => ⟨S32x1152x32, .f32⟩
  | .hbm, ⟨11, _⟩ => ⟨S32x1x1152x32, .f32⟩
  | .hbm, ⟨12, _⟩ => ⟨S32x64x1152x32, .f32⟩
  | .hbm, ⟨13, _⟩ => ⟨S32x64x1152x32, .f32⟩
  | .hbm, ⟨14, _⟩ => ⟨S32x64x1152x32, .f32⟩
  | .hbm, ⟨15, _⟩ => ⟨S_, .f32⟩
  | .hbm, ⟨16, _⟩ => ⟨S32x1152x32, .f32⟩
  | .hbm, ⟨17, _⟩ => ⟨S32x1x1152x32, .f32⟩
  | .hbm, ⟨18, _⟩ => ⟨S32x64x1152x32, .f32⟩
  | .hbm, ⟨19, _⟩ => ⟨S32x64x1152x32, .f32⟩
  | .hbm, ⟨20, _⟩ => ⟨S32x64x1152x32, .f32⟩
  | .hbm, ⟨21, _⟩ => ⟨S_, .f32⟩
  | .hbm, ⟨22, _⟩ => ⟨S32x64x32, .f32⟩
  | .hbm, ⟨23, _⟩ => ⟨S32x64x1x32, .f32⟩
  | .hbm, ⟨24, _⟩ => ⟨S32x64x1x32, .f32⟩
  | .hbm, ⟨25, _⟩ => ⟨S_, .f32⟩
  | .hbm, ⟨26, _⟩ => ⟨S32x64x1, .f32⟩
  | .hbm, ⟨27, _⟩ => ⟨S32x64x1x1, .f32⟩
  | .hbm, ⟨28, _⟩ => ⟨S32x64x1x1, .f32⟩
  | .hbm, ⟨29, _⟩ => ⟨S32x64x1x32, .f32⟩
  | .hbm, ⟨30, _⟩ => ⟨S32x64x1x32, .f32⟩
  | .hbm, ⟨31, _⟩ => ⟨S_, .f32⟩
  | .hbm, ⟨32, _⟩ => ⟨S32x64x1x1, .f32⟩
  | .hbm, ⟨33, _⟩ => ⟨S32x64x1x1, .f32⟩
  | .hbm, ⟨34, _⟩ => ⟨S32x64x1x32, .f32⟩
  | .hbm, ⟨35, _⟩ => ⟨S32x64x1x32, .f32⟩
  | .hbm, ⟨36, _⟩ => ⟨S32x64x1152x32, .f32⟩
  | .hbm, ⟨37, _⟩ => ⟨S32x64x1152x32, .f32⟩
  | .hbm, ⟨38, _⟩ => ⟨S_, .f32⟩
  | .hbm, ⟨39, _⟩ => ⟨S32x64x1152, .f32⟩
  | .hbm, ⟨40, _⟩ => ⟨S32x64x1152x1, .f32⟩
  | .hbm, ⟨41, _⟩ => ⟨S32x64x1152x32, .f32⟩
  | .hbm, ⟨42, _⟩ => ⟨S32x64x1152x32, .f32⟩
  | .hbm, ⟨43, _⟩ => ⟨S_, .f32⟩
  | .hbm, ⟨44, _⟩ => ⟨S32x1152x32, .f32⟩
  | .hbm, ⟨45, _⟩ => ⟨S_, .f32⟩
  | .hbm, ⟨46, _⟩ => ⟨S32x1152x32, .f32⟩
  | .hbm, ⟨47, _⟩ => ⟨S32x1152x32, .f32⟩
  | .hbm, ⟨48, _⟩ => ⟨S32x1x1152x32, .f32⟩
  | .hbm, ⟨49, _⟩ => ⟨S32x64x1152x32, .f32⟩
  | .hbm, ⟨50, _⟩ => ⟨S32x64x1152x32, .f32⟩
  | .hbm, ⟨51, _⟩ => ⟨S32x64x1152x32, .f32⟩
  | .hbm, ⟨52, _⟩ => ⟨S_, .f32⟩
  | .hbm, ⟨53, _⟩ => ⟨S32x1152x32, .f32⟩
  | .hbm, ⟨54, _⟩ => ⟨S32x1x1152x32, .f32⟩
  | .hbm, ⟨55, _⟩ => ⟨S32x64x1152x32, .f32⟩
  | .hbm, ⟨56, _⟩ => ⟨S32x64x1152x32, .f32⟩
  | .hbm, ⟨57, _⟩ => ⟨S32x64x1152x32, .f32⟩
  | .hbm, ⟨58, _⟩ => ⟨S_, .f32⟩
  | .hbm, ⟨59, _⟩ => ⟨S32x64x32, .f32⟩
  | .hbm, ⟨60, _⟩ => ⟨S32x64x1x32, .f32⟩
  | .hbm, ⟨61, _⟩ => ⟨S32x64x1x32, .f32⟩
  | .hbm, ⟨62, _⟩ => ⟨S_, .f32⟩
  | .hbm, ⟨63, _⟩ => ⟨S32x64x1, .f32⟩
  | .hbm, ⟨64, _⟩ => ⟨S32x64x1x1, .f32⟩
  | .hbm, ⟨65, _⟩ => ⟨S32x64x1x1, .f32⟩
  | .hbm, ⟨66, _⟩ => ⟨S32x64x1x32, .f32⟩
  | .hbm, ⟨67, _⟩ => ⟨S32x64x1x32, .f32⟩
  | .hbm, ⟨68, _⟩ => ⟨S_, .f32⟩
  | .hbm, ⟨69, _⟩ => ⟨S32x64x1x1, .f32⟩
  | .hbm, ⟨70, _⟩ => ⟨S32x64x1x1, .f32⟩
  | .hbm, ⟨71, _⟩ => ⟨S32x64x1x32, .f32⟩
  | .hbm, ⟨72, _⟩ => ⟨S32x64x1x32, .f32⟩
  | .hbm, ⟨73, _⟩ => ⟨S32x64x1152x32, .f32⟩
  | .hbm, ⟨74, _⟩ => ⟨S32x64x1152x32, .f32⟩
  | .hbm, ⟨75, _⟩ => ⟨S_, .f32⟩
  | .hbm, ⟨76, _⟩ => ⟨S32x64x1152, .f32⟩
  | .hbm, ⟨77, _⟩ => ⟨S32x64x1152x1, .f32⟩
  | .hbm, ⟨78, _⟩ => ⟨S32x64x1152x32, .f32⟩
  | .hbm, ⟨79, _⟩ => ⟨S32x64x1152x32, .f32⟩
  | .hbm, ⟨80, _⟩ => ⟨S_, .f32⟩
  | .hbm, ⟨81, _⟩ => ⟨S32x1152x32, .f32⟩
  | .hbm, ⟨82, _⟩ => ⟨S_, .f32⟩
  | .hbm, ⟨83, _⟩ => ⟨S32x1152x32, .f32⟩
  | .hbm, ⟨84, _⟩ => ⟨S32x1152x32, .f32⟩
  | .hbm, ⟨85, _⟩ => ⟨S32x1x1152x32, .f32⟩
  | .hbm, ⟨86, _⟩ => ⟨S32x64x1152x32, .f32⟩
  | .hbm, ⟨87, _⟩ => ⟨S32x64x1152x32, .f32⟩
  | .hbm, ⟨88, _⟩ => ⟨S32x64x1152x32, .f32⟩
  | .hbm, ⟨89, _⟩ => ⟨S_, .f32⟩
  | .hbm, ⟨90, _⟩ => ⟨S32x1152x32, .f32⟩
  | .hbm, ⟨91, _⟩ => ⟨S32x1x1152x32, .f32⟩
  | .hbm, ⟨92, _⟩ => ⟨S32x64x1152x32, .f32⟩
  | .hbm, ⟨93, _⟩ => ⟨S32x64x1152x32, .f32⟩
  | .hbm, ⟨94, _⟩ => ⟨S32x64x1152x32, .f32⟩
  | .hbm, ⟨95, _⟩ => ⟨S_, .f32⟩
  | .hbm, ⟨96, _⟩ => ⟨S32x64x32, .f32⟩
  | .hbm, ⟨97, _⟩ => ⟨S32x64x1x32, .f32⟩
  | .hbm, ⟨98, _⟩ => ⟨S32x64x1x32, .f32⟩
  | .hbm, ⟨99, _⟩ => ⟨S_, .f32⟩
  | .hbm, ⟨100, _⟩ => ⟨S32x64x1, .f32⟩
  | .hbm, ⟨101, _⟩ => ⟨S32x64x1x1, .f32⟩
  | .hbm, ⟨102, _⟩ => ⟨S32x64x1x1, .f32⟩
  | .hbm, ⟨103, _⟩ => ⟨S32x64x1x32, .f32⟩
  | .hbm, ⟨104, _⟩ => ⟨S32x64x1x32, .f32⟩
  | .hbm, ⟨105, _⟩ => ⟨S_, .f32⟩
  | .hbm, ⟨106, _⟩ => ⟨S32x64x1x1, .f32⟩
  | .hbm, ⟨107, _⟩ => ⟨S32x64x1x1, .f32⟩
  | .hbm, ⟨108, _⟩ => ⟨S32x64x1x32, .f32⟩
  | .hbm, ⟨109, _⟩ => ⟨S32x64x1x32, .f32⟩
  | .hbm, ⟨110, _⟩ => ⟨S32x64x32, .f32⟩
  | _, _ => ⟨S32x1152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_cst_15 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_19 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]

class Facts₀ : Prop where
  transposes_S32x1152x64x32_S32x64x1152x32_0_2_1_3 : S32x1152x64x32.Transposes [0, 2, 1, 3] S32x64x1152x32
  bcast_S_S32x64x1152x32 : S_.BroadcastsInDim S32x64x1152x32 (![] : Fin 0 → Fin S32x64x1152x32.rank)
  reducesTo_S32x64x1152x32_S32x1152x32_d1 : S32x64x1152x32.ReducesTo [1] S32x1152x32
  h_S_ : 0 < S_.numel
  bcast_S_S32x1152x32 : S_.BroadcastsInDim S32x1152x32 (![] : Fin 0 → Fin S32x1152x32.rank)
  bcast_S32x1152x32_S32x1x1152x32_0_2_3 : S32x1152x32.BroadcastsInDim S32x1x1152x32 (![0, 2, 3] : Fin 3 → Fin S32x1x1152x32.rank)
  bcast_S32x1x1152x32_S32x64x1152x32_0_1_2_3 : S32x1x1152x32.BroadcastsInDim S32x64x1152x32 (![0, 1, 2, 3] : Fin 4 → Fin S32x64x1152x32.rank)
  reducesTo_S32x64x1152x32_S32x64x32_d2 : S32x64x1152x32.ReducesTo [2] S32x64x32
  bcast_S32x64x32_S32x64x1x32_0_1_3 : S32x64x32.BroadcastsInDim S32x64x1x32 (![0, 1, 3] : Fin 3 → Fin S32x64x1x32.rank)
  reducesTo_S32x64x1x32_S32x64x1_d3 : S32x64x1x32.ReducesTo [3] S32x64x1
  bcast_S32x64x1_S32x64x1x1_0_1_2 : S32x64x1.BroadcastsInDim S32x64x1x1 (![0, 1, 2] : Fin 3 → Fin S32x64x1x1.rank)
  bcast_S32x64x1x1_S32x64x1x32_0_1_2_3 : S32x64x1x1.BroadcastsInDim S32x64x1x32 (![0, 1, 2, 3] : Fin 4 → Fin S32x64x1x32.rank)
  bcast_S_S32x64x1x1 : S_.BroadcastsInDim S32x64x1x1 (![] : Fin 0 → Fin S32x64x1x1.rank)
  bcast_S32x64x1x32_S32x64x1152x32_0_1_2_3 : S32x64x1x32.BroadcastsInDim S32x64x1152x32 (![0, 1, 2, 3] : Fin 4 → Fin S32x64x1152x32.rank)
  reducesTo_S32x64x1152x32_S32x64x1152_d3 : S32x64x1152x32.ReducesTo [3] S32x64x1152
  bcast_S32x64x1152_S32x64x1152x1_0_1_2 : S32x64x1152.BroadcastsInDim S32x64x1152x1 (![0, 1, 2] : Fin 3 → Fin S32x64x1152x1.rank)
  bcast_S32x64x1152x1_S32x64x1152x32_0_1_2_3 : S32x64x1152x1.BroadcastsInDim S32x64x1152x32 (![0, 1, 2, 3] : Fin 4 → Fin S32x64x1152x32.rank)
  shapeCasts_S32x64x1x32_S32x64x32 : S32x64x1x32.ShapeCasts S32x64x32
  dot_S32x1152x32_S64x32x32_S32x1152x64x32_2_2_01_01_n_n_wf : DotDims.WF S32x1152x32 S64x32x32 S32x1152x64x32 [2] [2] [0, 1] [0, 1] [] []

variable [Facts₀]

def dot_S32x1152x32_S64x32x32_S32x1152x64x32_2_2_01_01_n_n : DotDims S32x1152x32 S64x32x32 S32x1152x64x32 where
  lhsContracting := [2]
  rhsContracting := [2]
  lhsNonContracting := [0, 1]
  rhsNonContracting := [0, 1]
  lhsBatch := []
  rhsBatch := []
  wf := dot_S32x1152x32_S64x32x32_S32x1152x64x32_2_2_01_01_n_n_wf

class Facts : Prop extends Facts₀ where

variable [Facts]
-- ==== Proof.Routing.lean ====
/-
  Dynamic routing between capsules, for one batch element, as a function on the extended reals.

  From the prediction vectors `P o l n` (output capsule `o`, output coordinate `l`, input capsule `n`) three
  routing rounds are taken. A round forms, for every output capsule, the sum over the input capsules of the
  predictions weighted by coupling coefficients, the coefficients being the softmax over the OUTPUT capsules of the
  routing logits; between rounds the logits grow by the agreement of the squashed output with each prediction,
  the inner product over `l`. In the first round the logits are all zero, so every coefficient is 1/64, and the
  weighted sum is the plain sum times 1/64: `out0` is written in that form, and `weighted_zero` says it is the
  softmax-weighted sum at zero logits. That identity is the only place where a product is moved across a sum; it
  holds on the extended reals because the factor 1/64 is a nonnegative real (`sum_mul_nonneg_real`).
-/
import Idealize.ShloMosaic.PureOps.Ideal
import Idealize.ShloMosaic.PureOps.Ideal.Laws
import Idealize.ShloMosaic.Lib.ValueIdx

noncomputable section

open scoped BigOperators

namespace Cert.Routing

open Idealize.ShloMosaic

/-- The f32 word of -∞, from which a maximum over the output capsules starts. -/
abbrev negInf : EReal := Ideal.ofBits .f32 0xFF800000#32
/-- The f32 word of 1.0. -/
abbrev one : EReal := Ideal.ofBits .f32 0x3F800000#32
/-- The f32 word of 1/64 = 2⁻⁶, the uniform coupling coefficient over 64 output capsules. -/
abbrev invCaps : EReal := Ideal.ofBits .f32 0x3C800000#32

/-- The squared length of a capsule's output vector. -/
def normSq (v : Fin 32 → EReal) : EReal := ∑ k, v k * v k

/-- The squashing nonlinearity `v ↦ v · ‖v‖ / (1 + ‖v‖²)`, coordinate `l`. -/
def squash (v : Fin 32 → EReal) (l : Fin 32) : EReal :=
  Ideal.div (v l * Ideal.sqrt (normSq v)) (one + normSq v)

/-- The shift a softmax subtracts: the maximum of the logits over the output capsules (taken from -∞, and once more
    against -∞). -/
def shift (L : Fin 64 → EReal) : EReal := max negInf ((Finset.univ : Finset (Fin 64)).fold max negInf L)

/-- The coupling coefficient of output capsule `o`: the softmax of the logits over the output capsules. -/
def coupling (L : Fin 64 → EReal) (o : Fin 64) : EReal :=
  Ideal.div (Ideal.exp (L o - shift L)) (∑ o', Ideal.exp (L o' - shift L))

/-- The agreement of the vectors `s o` with the predictions: the inner product over the output coordinate. -/
def agree (s : Fin 64 → Fin 32 → EReal) (P : Fin 64 → Fin 32 → Fin 1152 → EReal) (o : Fin 64) (n : Fin 1152) : EReal :=
  ∑ l, s o l * P o l n

/-- The predictions summed over the input capsules, weighted by the coupling coefficients of the logits `L`. -/
def weighted (P : Fin 64 → Fin 32 → Fin 1152 → EReal) (L : Fin 64 → Fin 1152 → EReal) (o : Fin 64) (l : Fin 32) : EReal :=
  ∑ n, P o l n * coupling (fun o' => L o' n) o

/-- Round one's output: at zero logits the coupling is uniform, the plain sum times 1/64. -/
def out0 (P : Fin 64 → Fin 32 → Fin 1152 → EReal) (o : Fin 64) (l : Fin 32) : EReal := (∑ n, P o l n) * invCaps

/-- The logits after round one. -/
def logits1 (P : Fin 64 → Fin 32 → Fin 1152 → EReal) (o : Fin 64) (n : Fin 1152) : EReal :=
  agree (fun o => squash (out0 P o)) P o n

/-- Round two's output. -/
def out1 (P : Fin 64 → Fin 32 → Fin 1152 → EReal) : Fin 64 → Fin 32 → EReal := weighted P (logits1 P)

/-- The logits after round two. -/
def logits2 (P : Fin 64 → Fin 32 → Fin 1152 → EReal) (o : Fin 64) (n : Fin 1152) : EReal :=
  logits1 P o n + agree (fun o => squash (out1 P o)) P o n

/-- Round three's output. -/
def out2 (P : Fin 64 → Fin 32 → Fin 1152 → EReal) : Fin 64 → Fin 32 → EReal := weighted P (logits2 P)

/-- The routed capsules: round three's output, squashed. -/
def route (P : Fin 64 → Fin 32 → Fin 1152 → EReal) (o : Fin 64) (l : Fin 32) : EReal := squash (out2 P o) l

/-- The prediction vectors of one batch element: each input capsule `X n` through the weight matrix of output
    capsule `o`. -/
def priors (X : Fin 1152 → Fin 32 → EReal) (W : Fin 64 → Fin 32 → Fin 32 → EReal) (o : Fin 64) (l : Fin 32) (n : Fin 1152) : EReal :=
  ∑ i, W o l i * X n i

/-- The whole result array as one function of the two argument arrays `X : [32, 1152, 32]` (batch, input capsule,
    input coordinate) and `W : [64, 32, 32]` (output capsule, output coordinate, input coordinate): entry
    `(b, o, l)` is the routed capsule `o`, coordinate `l`, of batch element `b`'s predictions. -/
def G (X : (⟨3, ![32, 1152, 32]⟩ : Shape).Idx → EReal) (W : (⟨3, ![64, 32, 32]⟩ : Shape).Idx → EReal) :
    (⟨3, ![32, 64, 32]⟩ : Shape).Idx → EReal :=
  fun j => route (priors (fun n i => X (ValueIdx.ix3 (j 0) n i)) (fun o l i => W (ValueIdx.ix3 o l i))) (j 1) (j 2)

/-! ## The first round: uniform coupling -/

theorem negInf_eq : negInf = ⊥ := by
  simp [negInf, Ideal.ofBits, Ideal.ieee]

theorem invCaps_eq : invCaps = ((1 / 64 : ℝ) : EReal) := by
  simp [invCaps, Ideal.ofBits, Ideal.ieee, -EReal.coe_mul]; norm_num

/-- A nonnegative real factor moves across a finite sum of extended reals. -/
theorem sum_mul_nonneg_real {ι : Type*} (s : Finset ι) (f : ι → EReal) (c : ℝ) (hc : 0 ≤ c) :
    ∑ n ∈ s, (c : EReal) * f n = (∑ n ∈ s, f n) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c), mul_comm (c : EReal)]

/-- At zero logits the shift is zero. -/
theorem shift_zero : shift (fun _ => (0 : EReal)) = 0 := by
  unfold shift
  rw [negInf_eq]
  have h : (Finset.univ : Finset (Fin 64)).fold max (⊥ : EReal) (fun _ => (0 : EReal)) = 0 := by
    apply le_antisymm
    · exact (Finset.fold_max_le _).mpr ⟨bot_le, fun _ _ => le_rfl⟩
    · exact (Finset.le_fold_max _).mpr (Or.inr ⟨0, Finset.mem_univ _, le_rfl⟩)
  rw [h]
  exact max_eq_right bot_le

/-- At zero logits every coupling coefficient is 1/64. -/
theorem coupling_zero (o : Fin 64) : coupling (fun _ => (0 : EReal)) o = invCaps := by
  unfold coupling
  have he : Ideal.exp (0 : EReal) = 1 := by
    rw [← EReal.coe_zero]
    show ((Real.exp 0 : ℝ) : EReal) = 1
    rw [Real.exp_zero, EReal.coe_one]
  have hs : (∑ _o' : Fin 64, (1 : EReal)) = ((64 : ℝ) : EReal) := by
    simp
    norm_cast
  simp only [shift_zero, sub_zero, he, hs, invCaps_eq]
  unfold Ideal.div
  rw [if_neg (by norm_num)]
  rw [one_mul, ← EReal.coe_inv]
  norm_num

/-- The softmax-weighted sum at zero logits, the coefficient written first, is round one's output. -/
theorem weighted_zero (P : Fin 64 → Fin 32 → Fin 1152 → EReal) (o : Fin 64) (l : Fin 32) :
    ∑ n, coupling (fun _ => (0 : EReal)) o * P o l n = out0 P o l := by
  unfold out0
  simp only [coupling_zero, invCaps_eq]
  exact sum_mul_nonneg_real _ _ _ (by norm_num)

end Cert.Routing

end
-- ==== Proof.BodyTerm.lean ====
import proofs.«173284_j6184752906707_2_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one stored block as a pure term of its two input blocks: the prediction vectors `k0_pay2 x0 x1` are
    parked in the scratch buffer and read back three times (each read-back is the parked array itself), the routing
    rounds are taken over them, and the squashed output of the last round is stored. -/
def bodyTerm (x0 : Vec F S1x1152x32 .f32) (x1 : Vec F S2048x32 .f32) : Vec F S1x64x32 .f32 :=
  k0_pay1
    (k0_pay6 (k0_pay3 (k0_pay2 x0 x1)) (k0_pay4 (k0_pay2 x0 x1)) (k0_pay5 (k0_pay2 x0 x1))
      (Scalar.ofBits .f32 0xFF800000#32) (k0_pay2 x0 x1))
    (k0_pay7 (k0_pay3 (k0_pay2 x0 x1)) (k0_pay4 (k0_pay2 x0 x1)) (k0_pay5 (k0_pay2 x0 x1))
      (Scalar.ofBits .f32 0xFF800000#32) (k0_pay2 x0 x1))

/-- What the run leaves in the output's staging buffer is that term of the two input blocks. -/
theorem out_eq_bodyTerm (c : Dev nD) (i : grid0.Coords) (a1 : Memref sig .tc .vmem S1x1152x32 .f32) (h1 : a1.IsWhole)
    (a2 : Memref sig .tc .vmem S2048x32 .f32) (h2 : a2.IsWhole) (a3 : Memref sig .tc .vmem S1x64x32 .f32) (h3 : a3.IsWhole)
    (a4 : Memref sig .tc .vmem S64x32x1152 .f32) (h4 : a4.IsWhole) (x0 : Vec F S1x1152x32 .f32) (x1 : Vec F S2048x32 .f32) :
    out0_A_2 c i a1 h1 a2 h2 a3 h3 a4 h4 x0 x1 = bodyTerm x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero hz3]
  simp only [View.readCov_unit_zero (S := S64x32x1152) _ hz3, View.readAt_eq_ld, h1.read_unread, h2.read_unread,
    View.ld_unit_zero (S := S1x1152x32) hz3, View.ld_unit_zero (S := S2048x32) hz2]
  rfl

end Cert.KernelIdeal.BodyValue
end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.BodyProducts.lean ====
import proofs.«173284_j6184752906707_2_alg».proof.Proof.Gen.KernelIdeal.Skeleton
import proofs.«173284_j6184752906707_2_alg».proof.Proof.Routing
import proofs.«173284_j6184752906707_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.BodyValue

open Cert.KernelIdeal Cert.KernelIdeal.Gen

/-! ## The body's products, each read at an index as a sum over its contraction

The body takes three matrix products on the extended reals (a change of float format is the identity): the
prediction vectors (weights against the input capsules, contracting the input coordinate), the agreement of a
row vector per output capsule with the predictions (contracting the output coordinate), and the predictions
weighted by the coupling coefficients (contracting the input capsules); the last two are batched over the output
capsules. Into a zero accumulator each entry is the plain sum of the products over the contracted axis. -/

/-- Row `o * 32 + l` of the weight matrix flattened to [2048, 32]. -/
def rowOf (o : Fin 64) (l : Fin 32) : Fin 2048 := ⟨o.val * 32 + l.val, by have := o.isLt; have := l.isLt; omega⟩

/-- The agreement product: for every output capsule, the row vector `S o` against the predictions. -/
def agreeV (S : FVec Ideal S64x32 .f32) (Pv : FVec Ideal S64x32x1152 .f32) : FVec Ideal S64x1152 .f32 :=
  shapeCast S64x1152 (matmul dot_S64x1x32_S64x32x1152_S64x1x1152_2_1_1_2_0_0 none
    (shapeCast S64x1x32 (truncf .bf16 S bitsLt_bf16_f32) shapeCasts_S64x32_S64x1x32)
    (truncf .bf16 Pv bitsLt_bf16_f32) (constant S64x1x1152 .f32 0x00000000#32)) shapeCasts_S64x1x1152_S64x1152

/-- Entry `(o, n)` of the agreement product is the inner product over the output coordinate. -/
theorem agreeV_apply (S : FVec Ideal S64x32 .f32) (Pv : FVec Ideal S64x32x1152 .f32) (o : Fin 64) (n : Fin 1152) :
    agreeV S Pv (ix2 o n) = ∑ l : Fin 32, S (ix2 o l) * Pv (ix3 o l n) := by
  unfold agreeV
  refine (shapeCast_apply _ _ (ix2 o n) (ix3 o (0 : Fin 1) n) ?_).trans ?_
  · rw [Shape.rowMajor_val_three, Shape.rowMajor_val_two]
    show (o.val * 1 + 0) * 1152 + n.val = o.val * 1152 + n.val
    omega
  simp only [matmul]
  rw [Ideal.matmul_constant_zero_apply]
  rw [← Equiv.sum_comp (contrEquiv1 dot_S64x1x32_S64x32x1152_S64x1x1152_2_1_1_2_0_0 32 rfl rfl).symm]
  refine Finset.sum_congr rfl fun l _ => ?_
  have hl2 : ((dot_S64x1x32_S64x32x1152_S64x1x1152_2_1_1_2_0_0.lhsIdx (ix3 o (0 : Fin 1) n)
      ((contrEquiv1 dot_S64x1x32_S64x32x1152_S64x1x1152_2_1_1_2_0_0 32 rfl rfl).symm l)) 2).val = l.val :=
    (DotDims.lhsIdx_val_of_single _ (cl := 2) rfl _ _).trans (contrEquiv1_symm_val _ 32 rfl rfl l)
  have hr1 : ((dot_S64x1x32_S64x32x1152_S64x1x1152_2_1_1_2_0_0.rhsIdx (ix3 o (0 : Fin 1) n)
      ((contrEquiv1 dot_S64x1x32_S64x32x1152_S64x1x1152_2_1_1_2_0_0 32 rfl rfl).symm l)) 1).val = l.val :=
    (DotDims.rhsIdx_val_of_single _ (cr := 1) rfl _ _).trans (contrEquiv1_symm_val _ 32 rfl rfl l)
  refine congrArg₂ (· * ·) ?_ ?_
  · refine shapeCast_apply _ _ _ (ix2 o l) ?_
    rw [Shape.rowMajor_val_two, Shape.rowMajor_val_three, hl2]
    show o.val * 32 + l.val = (o.val * 1 + 0) * 32 + l.val
    omega
  · show Pv _ = Pv _
    refine congrArg Pv (funext fun a => Fin.ext ?_)
    match a with
    | ⟨0, _⟩ => rfl
    | ⟨1, _⟩ => exact hr1
    | ⟨2, _⟩ => rfl

/-- The weighted product: for every output capsule, the predictions against the column of coefficients `C o`. -/
def weightedV (Pv : FVec Ideal S64x32x1152 .f32) (C : FVec Ideal S64x1152 .f32) : FVec Ideal S64x32 .f32 :=
  shapeCast S64x32 (matmul dot_S64x32x1152_S64x1152x1_S64x32x1_2_1_1_2_0_0 none
    (truncf .bf16 Pv bitsLt_bf16_f32)
    (shapeCast S64x1152x1 (truncf .bf16 C bitsLt_bf16_f32) shapeCasts_S64x1152_S64x1152x1)
    (constant S64x32x1 .f32 0x00000000#32)) shapeCasts_S64x32x1_S64x32

/-- Entry `(o, l)` of the weighted product is the sum over the input capsules. -/
theorem weightedV_apply (Pv : FVec Ideal S64x32x1152 .f32) (C : FVec Ideal S64x1152 .f32) (o : Fin 64) (l : Fin 32) :
    weightedV Pv C (ix2 o l) = ∑ n : Fin 1152, Pv (ix3 o l n) * C (ix2 o n) := by
  unfold weightedV
  refine (shapeCast_apply _ _ (ix2 o l) (ix3 o l (0 : Fin 1)) ?_).trans ?_
  · rw [Shape.rowMajor_val_three, Shape.rowMajor_val_two]
    show (o.val * 32 + l.val) * 1 + 0 = o.val * 32 + l.val
    omega
  simp only [matmul]
  rw [Ideal.matmul_constant_zero_apply]
  rw [← Equiv.sum_comp (contrEquiv1 dot_S64x32x1152_S64x1152x1_S64x32x1_2_1_1_2_0_0 1152 rfl rfl).symm]
  refine Finset.sum_congr rfl fun n _ => ?_
  have hl2 : ((dot_S64x32x1152_S64x1152x1_S64x32x1_2_1_1_2_0_0.lhsIdx (ix3 o l (0 : Fin 1))
      ((contrEquiv1 dot_S64x32x1152_S64x1152x1_S64x32x1_2_1_1_2_0_0 1152 rfl rfl).symm n)) 2).val = n.val :=
    (DotDims.lhsIdx_val_of_single _ (cl := 2) rfl _ _).trans (contrEquiv1_symm_val _ 1152 rfl rfl n)
  have hr1 : ((dot_S64x32x1152_S64x1152x1_S64x32x1_2_1_1_2_0_0.rhsIdx (ix3 o l (0 : Fin 1))
      ((contrEquiv1 dot_S64x32x1152_S64x1152x1_S64x32x1_2_1_1_2_0_0 1152 rfl rfl).symm n)) 1).val = n.val :=
    (DotDims.rhsIdx_val_of_single _ (cr := 1) rfl _ _).trans (contrEquiv1_symm_val _ 1152 rfl rfl n)
  refine congrArg₂ (· * ·) ?_ ?_
  · show Pv _ = Pv _
    refine congrArg Pv (funext fun a => Fin.ext ?_)
    match a with
    | ⟨0, _⟩ => rfl
    | ⟨1, _⟩ => rfl
    | ⟨2, _⟩ => exact hl2
  · refine shapeCast_apply _ _ _ (ix2 o n) ?_
    rw [Shape.rowMajor_val_two, Shape.rowMajor_val_three, hr1]
    show o.val * 1152 + n.val = (o.val * 1152 + n.val) * 1 + 0
    omega

/-- The first round's output: the predictions summed over the input capsules, times the word of 1/64. -/
def uniformV (Pv : FVec Ideal S64x32x1152 .f32) : FVec Ideal S64x32 .f32 :=
  mulf (multiReduction .add [2] S64x32 Pv 0x00000000#32 reduces_S64x32x1152_S64x32 (.inl rfl) rfl)
    (broadcast S64x32 (Scalar.ofBits .f32 0x3C800000#32))

theorem uniformV_apply (Pv : FVec Ideal S64x32x1152 .f32) (o : Fin 64) (l : Fin 32) :
    uniformV Pv (ix2 o l) = (∑ n : Fin 1152, Pv (ix3 o l n)) * Cert.Routing.invCaps := by
  unfold uniformV
  rw [mulf_apply]
  refine congrArg₂ (· * ·) ((Ideal.multiReduction_add_single Pv 0x00000000#32 reduces_S64x32x1152_S64x32 (.inl rfl) rfl
    (ix2 o l)).trans (Finset.sum_congr rfl fun n _ => congrArg Pv (funext fun a => Fin.ext ?_))) rfl
  match a with
  | ⟨0, _⟩ => rfl
  | ⟨1, _⟩ => rfl
  | ⟨2, _⟩ => rfl

/-- The prediction vectors: entry `(o, l, n)` is row `o * 32 + l` of the flattened weights against input capsule `n`. -/
theorem priorsV_apply (x0 : Vec Ideal S1x1152x32 .f32) (x1 : Vec Ideal S2048x32 .f32) (o : Fin 64) (l : Fin 32) (n : Fin 1152) :
    k0_pay2 (F := Ideal) x0 x1 (ix3 o l n) = ∑ i : Fin 32, x1 (ix2 (rowOf o l) i) * x0 (ix3 (0 : Fin 1) n i) := by
  unfold k0_pay2
  rw [shapeCast_self]
  refine (shapeCast_apply _ _ (ix3 o l n) (ix2 (rowOf o l) n) ?_).trans ?_
  · rw [Shape.rowMajor_val_three, Shape.rowMajor_val_two]
    show (o.val * 32 + l.val) * 1152 + n.val = (o.val * 32 + l.val) * 1152 + n.val
    rfl
  simp only [matmul]
  rw [Ideal.matmul_constant_zero_apply]
  rw [← Equiv.sum_comp (contrEquiv1 dot_S2048x32_S1152x32_S2048x1152_1_1_0_0_n_n 32 rfl rfl).symm]
  refine Finset.sum_congr rfl fun i _ => ?_
  have hl1 : ((dot_S2048x32_S1152x32_S2048x1152_1_1_0_0_n_n.lhsIdx (ix2 (rowOf o l) n)
      ((contrEquiv1 dot_S2048x32_S1152x32_S2048x1152_1_1_0_0_n_n 32 rfl rfl).symm i)) 1).val = i.val :=
    (DotDims.lhsIdx_val_of_single _ (cl := 1) rfl _ _).trans (contrEquiv1_symm_val _ 32 rfl rfl i)
  have hr1 : ((dot_S2048x32_S1152x32_S2048x1152_1_1_0_0_n_n.rhsIdx (ix2 (rowOf o l) n)
      ((contrEquiv1 dot_S2048x32_S1152x32_S2048x1152_1_1_0_0_n_n 32 rfl rfl).symm i)) 1).val = i.val :=
    (DotDims.rhsIdx_val_of_single _ (cr := 1) rfl _ _).trans (contrEquiv1_symm_val _ 32 rfl rfl i)
  refine congrArg₂ (· * ·) ?_ ?_
  · rw [shapeCast_self]
    show x1 _ = x1 _
    refine congrArg x1 (funext fun a => Fin.ext ?_)
    match a with
    | ⟨0, _⟩ => rfl
    | ⟨1, _⟩ => exact hl1
  · refine shapeCast_apply _ _ _ (ix3 (0 : Fin 1) n i) ?_
    rw [Shape.rowMajor_val_three, Shape.rowMajor_val_two, hr1]
    show (0 * 1152 + n.val) * 32 + i.val = n.val * 32 + i.val
    omega

end Cert.KernelIdeal.BodyValue
end
-- ==== Proof.BodyStages.lean ====
import proofs.«173284_j6184752906707_2_alg».proof.Proof.Gen.KernelIdeal.Skeleton
import proofs.«173284_j6184752906707_2_alg».proof.Proof.Routing
import proofs.«173284_j6184752906707_2_alg».proof.Proof.LibColumn
import proofs.«173284_j6184752906707_2_alg».proof.Proof.BodyProducts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.BodyValue

open Cert.KernelIdeal Cert.KernelIdeal.Gen Idealize.ShloMosaic.ColumnIdx

/-! ## The body's pointwise stages, each read at an index

Squashing works row by row on a [64, 32] array (one row per output capsule): the squared length of the row is a
lane sum, kept as a column [64, 1] and broadcast back along the row. The softmax works column by column on a
[64, 1152] array of logits (one column per input capsule): the maximum and the sum over the output capsules are
reductions along axis 0, kept as a row [1, 1152] and broadcast back down the column. -/

/-- The squared lengths of the rows, as a column. -/
def rowNormSqV (U : FVec Ideal S64x32 .f32) : FVec Ideal S64x1 .f32 :=
  shapeCast S64x1 (multiReduction .add [1] S64 (mulf U U) 0x00000000#32 reduces_S64x32_S64 (.inl rfl) rfl) shapeCasts_S64_S64x1

theorem rowNormSqV_apply (U : FVec Ideal S64x32 .f32) (o : Fin 64) (u : Fin 1) :
    rowNormSqV U (ix2 o u) = Cert.Routing.normSq (fun k => U (ix2 o k)) := by
  unfold rowNormSqV
  refine (shapeCast_a_a1_apply _ _ o u).trans ?_
  exact rowSum_apply (mulf U U) reduces_S64x32_S64 (.inl rfl) rfl o

/-- Every row squashed. -/
def squashV (U : FVec Ideal S64x32 .f32) : FVec Ideal S64x32 .f32 :=
  divf (mulf U (broadcastTo S64x32 (sqrt (rowNormSqV U)) broadcasts_S64x1_S64x32))
    (broadcastTo S64x32 (addf (broadcast S64x1 (Scalar.ofBits .f32 0x3F800000#32)) (rowNormSqV U)) broadcasts_S64x1_S64x32)

theorem squashV_apply (U : FVec Ideal S64x32 .f32) (o : Fin 64) (l : Fin 32) :
    squashV U (ix2 o l) = Cert.Routing.squash (fun k => U (ix2 o k)) l := by
  unfold squashV Cert.Routing.squash
  rw [divf_apply, mulf_apply, broadcastTo_a1_ab_apply, broadcastTo_a1_ab_apply]
  show Ideal.div (U (ix2 o l) * Ideal.sqrt (rowNormSqV U (ix2 o (0 : Fin 1))))
    (Ideal.ofBits .f32 0x3F800000#32 + rowNormSqV U (ix2 o (0 : Fin 1))) = _
  rw [rowNormSqV_apply]

/-- The softmax's shift, one per column, broadcast down the column. -/
def shiftV (Lg : FVec Ideal S64x1152 .f32) : FVec Ideal S64x1152 .f32 :=
  broadcastTo S64x1152 (shapeCast S1x1152 (maximumf (broadcast S1152 (Scalar.ofBits .f32 0xFF800000#32))
    (multiReduction .maximumf [0] S1152 Lg 0xFF800000#32 reduces_S64x1152_S1152 (.inl rfl) rfl)) shapeCasts_S1152_S1x1152)
    broadcasts_S1x1152_S64x1152

theorem shiftV_apply (Lg : FVec Ideal S64x1152 .f32) (o : Fin 64) (n : Fin 1152) :
    shiftV Lg (ix2 o n) = Cert.Routing.shift (fun o' => Lg (ix2 o' n)) := by
  unfold shiftV Cert.Routing.shift
  rw [broadcastTo_1b_ab_apply, shapeCast_a_1a_apply, maximumf_apply, broadcast_apply]
  refine congrArg (max (Ideal.ofBits .f32 0xFF800000#32)) ?_
  refine (Ideal.multiReduction_maximumf_single Lg 0xFF800000#32 reduces_S64x1152_S1152 (.inl rfl) rfl (ix1 n)).trans ?_
  refine congrArg ((Finset.univ : Finset (Fin 64)).fold max (Ideal.ofBits .f32 0xFF800000#32)) (funext fun o' => ?_)
  show Lg _ = Lg _
  refine congrArg Lg (funext fun a => Fin.ext ?_)
  match a with
  | ⟨0, _⟩ => rfl
  | ⟨1, _⟩ => rfl

/-- The shifted exponentials. -/
def expShiftV (Lg : FVec Ideal S64x1152 .f32) : FVec Ideal S64x1152 .f32 := exp (subf Lg (shiftV Lg))

theorem expShiftV_apply (Lg : FVec Ideal S64x1152 .f32) (o : Fin 64) (n : Fin 1152) :
    expShiftV Lg (ix2 o n) = Ideal.exp (Lg (ix2 o n) - Cert.Routing.shift (fun o' => Lg (ix2 o' n))) := by
  unfold expShiftV
  show Ideal.exp (Lg (ix2 o n) - shiftV Lg (ix2 o n)) = _
  rw [shiftV_apply]

/-- The sums down the columns, broadcast back. -/
def colSumV (E : FVec Ideal S64x1152 .f32) : FVec Ideal S64x1152 .f32 :=
  broadcastTo S64x1152 (shapeCast S1x1152 (multiReduction .add [0] S1152 E 0x00000000#32 reduces_S64x1152_S1152 (.inl rfl) rfl)
    shapeCasts_S1152_S1x1152) broadcasts_S1x1152_S64x1152

theorem colSumV_apply (E : FVec Ideal S64x1152 .f32) (o : Fin 64) (n : Fin 1152) :
    colSumV E (ix2 o n) = ∑ o' : Fin 64, E (ix2 o' n) := by
  unfold colSumV
  rw [broadcastTo_1b_ab_apply, shapeCast_a_1a_apply]
  refine (Ideal.multiReduction_add_single E 0x00000000#32 reduces_S64x1152_S1152 (.inl rfl) rfl (ix1 n)).trans ?_
  refine Finset.sum_congr rfl fun o' _ => congrArg E (funext fun a => Fin.ext ?_)
  match a with
  | ⟨0, _⟩ => rfl
  | ⟨1, _⟩ => rfl

/-- The coupling coefficients: the softmax of every column. -/
def couplingV (Lg : FVec Ideal S64x1152 .f32) : FVec Ideal S64x1152 .f32 :=
  divf (expShiftV Lg) (colSumV (expShiftV Lg))

theorem couplingV_apply (Lg : FVec Ideal S64x1152 .f32) (o : Fin 64) (n : Fin 1152) :
    couplingV Lg (ix2 o n) = Cert.Routing.coupling (fun o' => Lg (ix2 o' n)) o := by
  unfold couplingV Cert.Routing.coupling
  rw [divf_apply, colSumV_apply, expShiftV_apply]
  simp only [expShiftV_apply]

end Cert.KernelIdeal.BodyValue
end
-- ==== Proof.BodyRounds.lean ====
import proofs.«173284_j6184752906707_2_alg».proof.Proof.Gen.KernelIdeal.Value
import proofs.«173284_j6184752906707_2_alg».proof.Proof.Routing
import proofs.«173284_j6184752906707_2_alg».proof.Proof.LibColumn
import proofs.«173284_j6184752906707_2_alg».proof.Proof.BodyProducts
import proofs.«173284_j6184752906707_2_alg».proof.Proof.BodyStages
import proofs.«173284_j6184752906707_2_alg».proof.Proof.BodyTerm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.BodyValue

open Cert.KernelIdeal Cert.KernelIdeal.Gen

/-! ## The three routing rounds of the body

The body's payloads are the stages of BodyProducts and BodyStages composed: the first round's uniform sum, squashed,
agreed with the predictions into the first logits; two softmax-weighted rounds; the last output squashed and stored
as a [1, 64, 32] block. Read at an index, every stage is the routing formula's stage on the predictions
`P (o, l, n)`, so the stored block at `(0, o, l)` is `route` of the predictions at `(o, l)`. -/

/-- The predictions as a function of their three coordinates. -/
abbrev rows3 (P : FVec Ideal S64x32x1152 .f32) : Fin 64 → Fin 32 → Fin 1152 → EReal := fun o l n => P (ix3 o l n)

/-- The logits after round one: zero plus the agreement of the squashed first output. -/
def logits1V (P : FVec Ideal S64x32x1152 .f32) : FVec Ideal S64x1152 .f32 :=
  addf (broadcast S64x1152 (Scalar.ofBits .f32 0x00000000#32)) (agreeV (squashV (uniformV P)) P)

/-- Round two's output. -/
def out1V (P : FVec Ideal S64x32x1152 .f32) : FVec Ideal S64x32 .f32 := weightedV P (couplingV (logits1V P))

/-- The logits after round two. -/
def logits2V (P : FVec Ideal S64x32x1152 .f32) : FVec Ideal S64x1152 .f32 :=
  addf (logits1V P) (agreeV (squashV (out1V P)) P)

/-- Round three's output. -/
def out2V (P : FVec Ideal S64x32x1152 .f32) : FVec Ideal S64x32 .f32 := weightedV P (couplingV (logits2V P))

/-- The stored block is the squashed last output, as a [1, 64, 32] block: the payload terms unfolded. -/
theorem bodyTerm_eq (x0 : Vec Ideal S1x1152x32 .f32) (x1 : Vec Ideal S2048x32 .f32) :
    bodyTerm (F := Ideal) x0 x1
      = shapeCast S1x64x32 (squashV (out2V (k0_pay2 (F := Ideal) x0 x1))) shapeCasts_S64x32_S1x64x32 := rfl

theorem logits1V_apply (P : FVec Ideal S64x32x1152 .f32) (o : Fin 64) (n : Fin 1152) :
    logits1V P (ix2 o n) = Cert.Routing.logits1 (rows3 P) o n := by
  unfold logits1V Cert.Routing.logits1 Cert.Routing.agree
  rw [addf_apply, broadcast_apply, agreeV_apply]
  show Ideal.ofBits .f32 0x00000000#32 + _ = _
  rw [Ideal.ofBits_zero_f32, zero_add]
  refine Finset.sum_congr rfl fun l _ => ?_
  rw [squashV_apply]
  simp only [uniformV_apply]
  rfl

theorem out1V_apply (P : FVec Ideal S64x32x1152 .f32) (o : Fin 64) (l : Fin 32) :
    out1V P (ix2 o l) = Cert.Routing.out1 (rows3 P) o l := by
  unfold out1V Cert.Routing.out1 Cert.Routing.weighted
  rw [weightedV_apply]
  refine Finset.sum_congr rfl fun n _ => ?_
  rw [couplingV_apply]
  simp only [logits1V_apply]

theorem logits2V_apply (P : FVec Ideal S64x32x1152 .f32) (o : Fin 64) (n : Fin 1152) :
    logits2V P (ix2 o n) = Cert.Routing.logits2 (rows3 P) o n := by
  unfold logits2V Cert.Routing.logits2 Cert.Routing.agree
  rw [addf_apply, logits1V_apply, agreeV_apply]
  refine congrArg (Cert.Routing.logits1 (rows3 P) o n + ·) (Finset.sum_congr rfl fun l _ => ?_)
  rw [squashV_apply]
  simp only [out1V_apply]

theorem out2V_apply (P : FVec Ideal S64x32x1152 .f32) (o : Fin 64) (l : Fin 32) :
    out2V P (ix2 o l) = Cert.Routing.out2 (rows3 P) o l := by
  unfold out2V Cert.Routing.out2 Cert.Routing.weighted
  rw [weightedV_apply]
  refine Finset.sum_congr rfl fun n _ => ?_
  rw [couplingV_apply]
  simp only [logits2V_apply]

/-- THE BODY AT AN INDEX: entry `(0, o, l)` of the stored block is the routed capsule `o`, coordinate `l`, of the
    predictions the body formed from its two input blocks. -/
theorem bodyTerm_apply (x0 : Vec Ideal S1x1152x32 .f32) (x1 : Vec Ideal S2048x32 .f32) (u : Fin 1) (o : Fin 64) (l : Fin 32) :
    bodyTerm (F := Ideal) x0 x1 (ix3 u o l)
      = Cert.Routing.route (fun o l n => ∑ i : Fin 32, x1 (ix2 (rowOf o l) i) * x0 (ix3 (0 : Fin 1) n i)) o l := by
  rw [bodyTerm_eq]
  refine (shapeCast_ab_1ab_apply _ _ u o l).trans ?_
  rw [squashV_apply]
  unfold Cert.Routing.route
  simp only [out2V_apply]
  have hP : rows3 (k0_pay2 (F := Ideal) x0 x1)
      = fun o l n => ∑ i : Fin 32, x1 (ix2 (rowOf o l) i) * x0 (ix3 (0 : Fin 1) n i) :=
    funext fun o => funext fun l => funext fun n => priorsV_apply x0 x1 o l n
  rw [hP]

end Cert.KernelIdeal.BodyValue
end
-- ==== Proof.KernelValue.lean ====
import proofs.«173284_j6184752906707_2_alg».proof.Proof.Gen.KernelIdeal.Value
import proofs.«173284_j6184752906707_2_alg».proof.Proof.Routing
import proofs.«173284_j6184752906707_2_alg».proof.Proof.BodyTerm
import proofs.«173284_j6184752906707_2_alg».proof.Proof.BodyProducts
import proofs.«173284_j6184752906707_2_alg».proof.Proof.BodyRounds
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value Cert.KernelIdeal.BodyValue

variable (m : (ℓ : Loc nD τ sig) → Buf (Elt Ideal) ℓ) (ρ : Dev nD → PrngReg)

/-! ## From the blocks to the array

Grid point `t` stages batch element `t` of the input capsules (block `(t, 0, 0)` of `[32, 1152, 32]`), the whole
weight matrix flattened to `[2048, 32]` by the host before the region, and writes back block `(t, 0, 0)` of the
result `[32, 64, 32]`: the 32 blocks tile the result, one batch element each. So the result array after the run is
`G` of the two argument arrays everywhere. -/

/-- The body at a point whose input blocks are batch element `b` of `X` and the flattened `W`: the stored block is
    batch element `b` of `G X W`. -/
theorem point_value (X : S32x1152x32.Idx → EReal) (W : S64x32x32.Idx → EReal)
    (x0 : Vec Ideal S1x1152x32 .f32) (x1 : Vec Ideal S2048x32 .f32) (b : Fin 32)
    (h0 : ∀ (n : Fin 1152) (i : Fin 32), x0 (ix3 (0 : Fin 1) n i) = X (ix3 b n i))
    (h1 : ∀ (o : Fin 64) (l : Fin 32) (i : Fin 32), x1 (ix2 (rowOf o l) i) = W (ix3 o l i))
    (u : Fin 1) (o : Fin 64) (l : Fin 32) :
    bodyTerm (F := Ideal) x0 x1 (ix3 u o l) = Cert.Routing.G X W (ix3 b o l) := by
  rw [bodyTerm_apply]
  unfold Cert.Routing.G Cert.Routing.priors
  simp only [h0, h1]

/-- The printed index maps, decided over the grid: the input capsules' and the result's block index is the grid
    point on the batch axis and zero elsewhere; the weights' block is the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The weights as the region finds them: the host's reshape of the second argument to `[2048, 32]`. -/
theorem V_weights (c : Dev nD) :
    (V m c main_v0 : S2048x32.Idx → EReal)
      = shapeCast S2048x32 (m ((c : Thread nD τ).loc main_arg1) : S64x32x32.Idx → EReal) shapeCasts_S64x32x32_S2048x32 := by
  dsimp only [Gen.V, Gen.hostOps0]
  after_results
  rfl

/-- Row `o * 32 + l` of the flattened weights is row `(o, l)` of the weights. -/
theorem weights_apply (c : Dev nD) (o : Fin 64) (l : Fin 32) (i : Fin 32) :
    (V m c main_v0 : S2048x32.Idx → EReal) (ix2 (rowOf o l) i)
      = (m ((c : Thread nD τ).loc main_arg1) : S64x32x32.Idx → EReal) (ix3 o l i) := by
  rw [V_weights]
  refine shapeCast_apply _ _ _ (ix3 o l i) ?_
  rw [Shape.rowMajor_val_three, Shape.rowMajor_val_two]
  rfl

/-- The batch element grid point `t` works on. -/
def batchOf (t : Fin cfg0.N) : Fin 32 := ⟨t.val, lt_of_lt_of_eq t.isLt N_0⟩

/-- The input capsules' block at point `t` is batch element `t` of the first argument. -/
theorem block0_apply (c : Dev nD) (t : Fin cfg0.N) (n : Fin 1152) (i : Fin 32) :
    (iblk m c 0 t : S1x1152x32.Idx → EReal) (ix3 (0 : Fin 1) n i)
      = (m ((c : Thread nD τ).loc main_arg0) : S32x1152x32.Idx → EReal) (ix3 (batchOf t) n i) := by
  show V m c main_arg0 (((cfg0.win 0).blk t).view.emb (ix3 (0 : Fin 1) n i)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 1152 + 1 * n.val = n.val; omega
  | ⟨2, _⟩ => show win0_0.index t (2 : Fin 3) * 32 + 1 * i.val = i.val; omega

/-- The weights' block at every point is the whole flattened array. -/
theorem block1_apply (c : Dev nD) (t : Fin cfg0.N) (r : Fin 2048) (i : Fin 32) :
    (iblk m c 1 t : S2048x32.Idx → EReal) (ix2 r i) = (V m c main_v0 : S2048x32.Idx → EReal) (ix2 r i) := by
  show V m c main_v0 (((cfg0.win 1).blk t).view.emb (ix2 r i)) = _
  obtain ⟨-, -, -, e3, e4, -⟩ := idx_facts t
  refine congrArg _ (funext fun a => Fin.ext ?_)
  match a with
  | ⟨0, _⟩ => show win0_1.index t (0 : Fin 2) * 2048 + 1 * r.val = r.val; omega
  | ⟨1, _⟩ => show win0_1.index t (1 : Fin 2) * 32 + 1 * i.val = i.val; omega

/-- WHAT POINT `t` WRITES BACK is block `t` of `G` of the argument arrays. -/
theorem flushed_eq (c : Dev nD) (t : Fin cfg0.N) :
    (dats m 0 c).flushed 2 t = ((cfg0.win 2).blk t).view.read (Elt Ideal)
      (Cert.Routing.G (m ((c : Thread nD τ).loc main_arg0)) (m ((c : Thread nD τ).loc main_arg1))) := by
  rw [flushed2_A, out_eq_bodyTerm]
  funext y
  obtain ⟨u, o, l, rfl⟩ : ∃ (u : Fin 1) (o : Fin 64) (l : Fin 32), y = ix3 u o l := ⟨y 0, y 1, y 2, eq_ix3 y⟩
  show bodyTerm (F := Ideal) (iblk m c 0 t) (iblk m c 1 t) (ix3 u o l)
    = Cert.Routing.G _ _ (((cfg0.win 2).blk t).view.emb (ix3 u o l))
  refine (point_value _ _ (iblk m c 0 t) (iblk m c 1 t) (batchOf t) (block0_apply m c t)
    (fun o l i => (block1_apply m c t (rowOf o l) i).trans (weights_apply m c o l i)) u o l).trans ?_
  obtain ⟨-, -, -, -, -, e5, e6, e7⟩ := idx_facts t
  refine congrArg _ (funext fun a => Fin.ext ?_)
  match a with
  | ⟨0, _⟩ => show t.val = win0_2.index t (0 : Fin 3) * 1 + 1 * u.val; have := u.isLt; omega
  | ⟨1, _⟩ => show o.val = win0_2.index t (1 : Fin 3) * 64 + 1 * o.val; omega
  | ⟨2, _⟩ => show l.val = win0_2.index t (2 : Fin 3) * 32 + 1 * l.val; omega

/-- An index of the result is in point `t`'s block iff each coordinate is in the block's range on its axis. -/
theorem mem_blk (t : Fin cfg0.N) (i : S32x64x32.Idx) :
    i ∈ ((cfg0.win 2).blk t).view.set ↔ ∀ a : Fin 3, win0_2.index t a * S1x64x32.size a ≤ (i a).val
      ∧ (i a).val < win0_2.index t a * S1x64x32.size a + S1x64x32.size a := by
  show i ∈ ((View.whole main_v1).slice (win0_2.rect t)).set ↔ _
  rw [View.set_slice_whole, Rect.mem_set_unit]
  exact Iff.rfl

/-- Every index of the result is in the block of the point of its batch coordinate. -/
theorem cover (i : S32x64x32.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 32 := (i 2).isLt
  have hN : grid0.N = 32 := N_0
  have ht : (i 0).val < cfg0.N := lt_of_lt_of_eq hi0 hN.symm
  refine ⟨⟨(i 0).val, ht⟩, flush0_2 _, ?_⟩
  rw [mem_blk]
  obtain ⟨-, -, -, -, -, e5, e6, e7⟩ := idx_facts ⟨(i 0).val, ht⟩
  have e5' : win0_2.index ⟨(i 0).val, ht⟩ (0 : Fin 3) = (i 0).val := e5
  intro a
  match a with
  | ⟨0, _⟩ =>
    show win0_2.index ⟨(i 0).val, ht⟩ (0 : Fin 3) * 1 ≤ (i 0).val ∧ (i 0).val < win0_2.index ⟨(i 0).val, ht⟩ (0 : Fin 3) * 1 + 1
    omega
  | ⟨1, _⟩ =>
    show win0_2.index ⟨(i 0).val, ht⟩ (1 : Fin 3) * 64 ≤ (i 1).val ∧ (i 1).val < win0_2.index ⟨(i 0).val, ht⟩ (1 : Fin 3) * 64 + 64
    omega
  | ⟨2, _⟩ =>
    show win0_2.index ⟨(i 0).val, ht⟩ (2 : Fin 3) * 32 ≤ (i 2).val ∧ (i 2).val < win0_2.index ⟨(i 0).val, ht⟩ (2 : Fin 3) * 32 + 32
    omega

/-- THE RESULT ARRAY after the run is `G` of the argument arrays. -/
theorem final (c : Dev nD) :
    (dats m 0 c).arrAt 2 cfg0.N
      = Cert.Routing.G (m ((c : Thread nD τ).loc main_arg0)) (m ((c : Thread nD τ).loc main_arg1)) :=
  (dats m 0 c).arrAt_eq_of_cover 2 _ (fun t _ => flushed_eq m c t) cover

/-- The kernel's run: every weakly fair execution terminates with the result at `G` of the arguments, the arguments
    unchanged. -/
theorem run : θ_run defs (onTc (τ := τ) (main (F := Ideal))) ⟨m, fun _ => 0, ρ⟩ fun r => ∀ c : Dev nD,
      r.2.mem ((c : Thread nD τ).loc main_v1)
        = Cert.Routing.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue
end
-- ==== Proof.RefValue.lean ====
/-
  The reference side of the value certificate: the reference program's result term, read at the ideal values, is
  the routing function `Cert.Routing.G` of the two argument arrays.

  The reference computes three rounds of dynamic routing over arrays of shape [32, 64, 1152, 32] (batch, output
  capsule, input capsule, output coordinate). Every round is the same chain of array operations, so the chain is
  cut into five stage functions over VARIABLE arrays —

    expShift L        exp (L - max over the output capsules of L)           the softmax's numerator
    weightedSum E P   Σ over input capsules of (E / Σ over output capsules of E) · P
    normSqV U         Σ over the output coordinate of U · U
    squashV U N       U · sqrt N / (1 + N)
    nextLogits L P S  L + Σ over the output coordinate of P · S

  — each read once at an index (a layout operation names one operand index, a reduction over one axis is the
  `Fin`-indexed sum or the fold of `max` over that axis's coordinates), and then the three rounds are composed:
  round one at zero logits is `Routing.weighted_zero`, rounds two and three are `Routing.weighted` after the
  factors of each product are commuted. Only commutativity of the product and `0 + x = x` are used, which hold on
  all extended reals, so no finiteness is needed here.
-/
import proofs.«173284_j6184752906707_2_alg».proof.Proof.Gen.ReferenceIdeal.Run
import proofs.«173284_j6184752906707_2_alg».proof.Proof.Routing
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## The stage functions -/

/-- Arrays indexed (batch, output capsule, input capsule, output coordinate). -/
abbrev A4 : Type := FVec Ideal S32x64x1152x32 .f32
/-- Arrays indexed (batch, output capsule, 0, output coordinate): one vector per output capsule. -/
abbrev A1 : Type := FVec Ideal S32x64x1x32 .f32
/-- Arrays indexed (batch, output capsule, 0, 0): one number per output capsule. -/
abbrev A0 : Type := FVec Ideal S32x64x1x1 .f32

/-- The prediction vectors: the contraction of the two arguments over the input coordinate, axes permuted. -/
def priorsV (X : FVec Ideal S32x1152x32 .f32) (W : FVec Ideal S64x32x32 .f32) : A4 :=
  transpose S32x64x1152x32 [0, 2, 1, 3] (Host.dotGeneral dot_S32x1152x32_S64x32x32_S32x1152x64x32_2_2_01_01_n_n none X W) transposes_S32x1152x64x32_S32x64x1152x32_0_2_1_3

/-- The zero logits. -/
def zeroV : A4 :=
  broadcastInDim S32x64x1152x32 ![] bcast_S_S32x64x1152x32 (constant (F := Ideal) S_ .f32 0x00000000#32)

/-- The softmax's numerator: the exponential of the logits less their maximum over the output capsules. -/
def expShift (L : A4) : A4 :=
  Host.exp (subf L (broadcastInDim S32x64x1152x32 ![0, 1, 2, 3] bcast_S32x1x1152x32_S32x64x1152x32_0_1_2_3 (broadcastInDim S32x1x1152x32 ![0, 2, 3] bcast_S32x1152x32_S32x1x1152x32_0_2_3 (maximumf (broadcastInDim S32x1152x32 ![] bcast_S_S32x1152x32 (constant (F := Ideal) S_ .f32 0xFF800000#32)) (Host.reduce FloatOps.maximumf L (constant (F := Ideal) S_ .f32 0xFF800000#32) reducesTo_S32x64x1152x32_S32x1152x32_d1 h_S_)))))

/-- The sum over the input capsules of the predictions `P` weighted by the numerators `E` over their sum over the
    output capsules. -/
def weightedSum (E P : A4) : A1 :=
  broadcastInDim S32x64x1x32 ![0, 1, 3] bcast_S32x64x32_S32x64x1x32_0_1_3 (Host.reduceAdd (mulf (Host.divf E (broadcastInDim S32x64x1152x32 ![0, 1, 2, 3] bcast_S32x1x1152x32_S32x64x1152x32_0_1_2_3 (broadcastInDim S32x1x1152x32 ![0, 2, 3] bcast_S32x1152x32_S32x1x1152x32_0_2_3 (Host.reduceAdd E (constant (F := Ideal) S_ .f32 0x00000000#32) reducesTo_S32x64x1152x32_S32x1152x32_d1 h_S_)))) P) (constant (F := Ideal) S_ .f32 0x00000000#32) reducesTo_S32x64x1152x32_S32x64x32_d2 h_S_)

/-- The squared length of each output capsule's vector. -/
def normSqV (U : A1) : A0 :=
  broadcastInDim S32x64x1x1 ![0, 1, 2] bcast_S32x64x1_S32x64x1x1_0_1_2 (Host.reduceAdd (mulf U U) (constant (F := Ideal) S_ .f32 0x00000000#32) reducesTo_S32x64x1x32_S32x64x1_d3 h_S_)

/-- The squashing nonlinearity applied to each output capsule's vector `U` of squared length `N`. -/
def squashV (U : A1) (N : A0) : A1 :=
  Host.divf (mulf U (broadcastInDim S32x64x1x32 ![0, 1, 2, 3] bcast_S32x64x1x1_S32x64x1x32_0_1_2_3 (Host.sqrt N))) (broadcastInDim S32x64x1x32 ![0, 1, 2, 3] bcast_S32x64x1x1_S32x64x1x32_0_1_2_3 (addf (broadcastInDim S32x64x1x1 ![] bcast_S_S32x64x1x1 (constant (F := Ideal) S_ .f32 0x3F800000#32)) N))

/-- The logits grown by the agreement of the vectors `S` with the predictions `P`. -/
def nextLogits (L P : A4) (S : A1) : A4 :=
  addf L (broadcastInDim S32x64x1152x32 ![0, 1, 2, 3] bcast_S32x64x1152x1_S32x64x1152x32_0_1_2_3 (broadcastInDim S32x64x1152x1 ![0, 1, 2] bcast_S32x64x1152_S32x64x1152x1_0_1_2 (Host.reduceAdd (mulf P (broadcastInDim S32x64x1152x32 ![0, 1, 2, 3] bcast_S32x64x1x32_S32x64x1152x32_0_1_2_3 S)) (constant (F := Ideal) S_ .f32 0x00000000#32) reducesTo_S32x64x1152x32_S32x64x1152_d3 h_S_)))

/-! ## The reference's named terms are the stages composed -/

section Named
variable (V0 : Valuation τ sig (Elt Ideal))

theorem v1_eq : res_main_v1 (F := Ideal) V0 = priorsV (V0 (Proc.devRef .tc main_arg0)) (V0 (Proc.devRef .tc main_arg1)) := rfl
theorem v2_eq : res_main_v2 (F := Ideal) V0 = zeroV := rfl
theorem v9_eq : res_main_v9 (F := Ideal) V0 = expShift (res_main_v2 V0) := rfl
theorem v16_eq : res_main_v16 (F := Ideal) V0 = weightedSum (res_main_v9 V0) (res_main_v1 V0) := rfl
theorem v19_eq : res_main_v19 (F := Ideal) V0 = normSqV (res_main_v16 V0) := rfl
theorem v32_eq : res_main_v32 (F := Ideal) V0
    = nextLogits (res_main_v2 V0) (res_main_v1 V0) (squashV (res_main_v16 V0) (res_main_v19 V0)) := rfl
theorem v39_eq : res_main_v39 (F := Ideal) V0 = expShift (res_main_v32 V0) := rfl
theorem v46_eq : res_main_v46 (F := Ideal) V0 = weightedSum (res_main_v39 V0) (res_main_v1 V0) := rfl
theorem v49_eq : res_main_v49 (F := Ideal) V0 = normSqV (res_main_v46 V0) := rfl
theorem v62_eq : res_main_v62 (F := Ideal) V0
    = nextLogits (res_main_v32 V0) (res_main_v1 V0) (squashV (res_main_v46 V0) (res_main_v49 V0)) := rfl
theorem v69_eq : res_main_v69 (F := Ideal) V0 = expShift (res_main_v62 V0) := rfl
theorem v76_eq : res_main_v76 (F := Ideal) V0 = weightedSum (res_main_v69 V0) (res_main_v1 V0) := rfl
theorem v79_eq : res_main_v79 (F := Ideal) V0 = normSqV (res_main_v76 V0) := rfl

end Named

/-! ## Layout operations at an index

Each broadcast of the program reads ONE index of its operand: the coordinates the dimension map names, `0` on the
operand's unit axes. -/

section Layout
variable {α : Type}

/-- [32,1152,32] to [32,1,1152,32]: a unit axis is inserted after the batch axis. -/
theorem bc_insert1 (x : S32x1152x32.Idx → α) (b : Fin 32) (z : Fin 1) (n : Fin 1152) (l : Fin 32) :
    broadcastInDim S32x1x1152x32 ![0, 2, 3] bcast_S32x1152x32_S32x1x1152x32_0_2_3 x (ix4 b z n l) = x (ix3 b n l) :=
  broadcastInDim_apply _ _ x (ix4 b z n l) (ix3 b n l) fun a => by
    match a with
    | ⟨0, _⟩ => rfl
    | ⟨1, _⟩ => rfl
    | ⟨2, _⟩ => rfl

/-- [32,1,1152,32] to [32,64,1152,32]: the unit axis is repeated over the output capsules. -/
theorem bc_caps (x : S32x1x1152x32.Idx → α) (b : Fin 32) (o : Fin 64) (n : Fin 1152) (l : Fin 32) :
    broadcastInDim S32x64x1152x32 ![0, 1, 2, 3] bcast_S32x1x1152x32_S32x64x1152x32_0_1_2_3 x (ix4 b o n l) = x (ix4 b 0 n l) :=
  broadcastInDim_apply _ _ x (ix4 b o n l) (ix4 b 0 n l) fun a => by
    match a with
    | ⟨0, _⟩ => rfl
    | ⟨1, _⟩ => rfl
    | ⟨2, _⟩ => rfl
    | ⟨3, _⟩ => rfl

/-- [32,64,32] to [32,64,1,32]: a unit axis is inserted before the output coordinate. -/
theorem bc_keep2 (x : S32x64x32.Idx → α) (b : Fin 32) (o : Fin 64) (z : Fin 1) (l : Fin 32) :
    broadcastInDim S32x64x1x32 ![0, 1, 3] bcast_S32x64x32_S32x64x1x32_0_1_3 x (ix4 b o z l) = x (ix3 b o l) :=
  broadcastInDim_apply _ _ x (ix4 b o z l) (ix3 b o l) fun a => by
    match a with
    | ⟨0, _⟩ => rfl
    | ⟨1, _⟩ => rfl
    | ⟨2, _⟩ => rfl

/-- [32,64,1] to [32,64,1,1]: a trailing unit axis is appended. -/
theorem bc_keep3 (x : S32x64x1.Idx → α) (b : Fin 32) (o : Fin 64) (z z' : Fin 1) :
    broadcastInDim S32x64x1x1 ![0, 1, 2] bcast_S32x64x1_S32x64x1x1_0_1_2 x (ix4 b o z z') = x (ix3 b o 0) :=
  broadcastInDim_apply _ _ x (ix4 b o z z') (ix3 b o 0) fun a => by
    match a with
    | ⟨0, _⟩ => rfl
    | ⟨1, _⟩ => rfl
    | ⟨2, _⟩ => rfl

/-- [32,64,1,1] to [32,64,1,32]: one number per capsule is repeated over the output coordinate. -/
theorem bc_coord (x : S32x64x1x1.Idx → α) (b : Fin 32) (o : Fin 64) (z : Fin 1) (l : Fin 32) :
    broadcastInDim S32x64x1x32 ![0, 1, 2, 3] bcast_S32x64x1x1_S32x64x1x32_0_1_2_3 x (ix4 b o z l) = x (ix4 b o 0 0) :=
  broadcastInDim_apply _ _ x (ix4 b o z l) (ix4 b o 0 0) fun a => by
    match a with
    | ⟨0, _⟩ => rfl
    | ⟨1, _⟩ => rfl
    | ⟨2, _⟩ => rfl
    | ⟨3, _⟩ => rfl

/-- [32,64,1,32] to [32,64,1152,32]: one vector per capsule is repeated over the input capsules. -/
theorem bc_inputs (x : S32x64x1x32.Idx → α) (b : Fin 32) (o : Fin 64) (n : Fin 1152) (l : Fin 32) :
    broadcastInDim S32x64x1152x32 ![0, 1, 2, 3] bcast_S32x64x1x32_S32x64x1152x32_0_1_2_3 x (ix4 b o n l) = x (ix4 b o 0 l) :=
  broadcastInDim_apply _ _ x (ix4 b o n l) (ix4 b o 0 l) fun a => by
    match a with
    | ⟨0, _⟩ => rfl
    | ⟨1, _⟩ => rfl
    | ⟨2, _⟩ => rfl
    | ⟨3, _⟩ => rfl

/-- [32,64,1152] to [32,64,1152,1]: a trailing unit axis is appended. -/
theorem bc_keep3' (x : S32x64x1152.Idx → α) (b : Fin 32) (o : Fin 64) (n : Fin 1152) (z : Fin 1) :
    broadcastInDim S32x64x1152x1 ![0, 1, 2] bcast_S32x64x1152_S32x64x1152x1_0_1_2 x (ix4 b o n z) = x (ix3 b o n) :=
  broadcastInDim_apply _ _ x (ix4 b o n z) (ix3 b o n) fun a => by
    match a with
    | ⟨0, _⟩ => rfl
    | ⟨1, _⟩ => rfl
    | ⟨2, _⟩ => rfl

/-- [32,64,1152,1] to [32,64,1152,32]: one number per pair of capsules is repeated over the output coordinate. -/
theorem bc_coord' (x : S32x64x1152x1.Idx → α) (b : Fin 32) (o : Fin 64) (n : Fin 1152) (l : Fin 32) :
    broadcastInDim S32x64x1152x32 ![0, 1, 2, 3] bcast_S32x64x1152x1_S32x64x1152x32_0_1_2_3 x (ix4 b o n l) = x (ix4 b o n 0) :=
  broadcastInDim_apply _ _ x (ix4 b o n l) (ix4 b o n 0) fun a => by
    match a with
    | ⟨0, _⟩ => rfl
    | ⟨1, _⟩ => rfl
    | ⟨2, _⟩ => rfl
    | ⟨3, _⟩ => rfl

end Layout

/-! ## Reductions over one axis at an index

The program's shape facts for a reduction say which axes are kept; the matching `Reduces` witnesses name the source
index over a result index with a coordinate inserted on the dropped axis, and that index is the tuple of coordinates. -/

theorem red_caps : Shape.Reduces S32x64x1152x32 [1] S32x1152x32 := by decide
theorem red_inputs : Shape.Reduces S32x64x1152x32 [2] S32x64x32 := by decide
theorem red_coord : Shape.Reduces S32x64x1152x32 [3] S32x64x1152 := by decide
theorem red_coord1 : Shape.Reduces S32x64x1x32 [3] S32x64x1 := by decide

theorem lift_caps (b : Fin 32) (n : Fin 1152) (l : Fin 32) (o : Fin 64) :
    red_caps.lift (ix3 b n l) o = ix4 b o n l := by
  funext a; apply Fin.ext
  match a with
  | ⟨0, _⟩ => rfl
  | ⟨1, _⟩ => rfl
  | ⟨2, _⟩ => rfl
  | ⟨3, _⟩ => rfl

theorem lift_inputs (b : Fin 32) (o : Fin 64) (l : Fin 32) (n : Fin 1152) :
    red_inputs.lift (ix3 b o l) n = ix4 b o n l := by
  funext a; apply Fin.ext
  match a with
  | ⟨0, _⟩ => rfl
  | ⟨1, _⟩ => rfl
  | ⟨2, _⟩ => rfl
  | ⟨3, _⟩ => rfl

theorem lift_coord (b : Fin 32) (o : Fin 64) (n : Fin 1152) (l : Fin 32) :
    red_coord.lift (ix3 b o n) l = ix4 b o n l := by
  funext a; apply Fin.ext
  match a with
  | ⟨0, _⟩ => rfl
  | ⟨1, _⟩ => rfl
  | ⟨2, _⟩ => rfl
  | ⟨3, _⟩ => rfl

theorem lift_coord1 (b : Fin 32) (o : Fin 64) (z : Fin 1) (l : Fin 32) :
    red_coord1.lift (ix3 b o z) l = ix4 b o z l := by
  funext a; apply Fin.ext
  match a with
  | ⟨0, _⟩ => rfl
  | ⟨1, _⟩ => rfl
  | ⟨2, _⟩ => rfl
  | ⟨3, _⟩ => rfl

/-- The sum over the output capsules, from the zero word. -/
theorem reduceAdd_caps (x : A4) (b : Fin 32) (n : Fin 1152) (l : Fin 32) :
    Host.reduceAdd x (constant (F := Ideal) S_ .f32 0x00000000#32) reducesTo_S32x64x1152x32_S32x1152x32_d1 h_S_ (ix3 b n l)
      = ∑ o : Fin 64, x (ix4 b o n l) := by
  unfold Host.reduceAdd
  rw [Ideal.hostReduceAdd_def, Ideal.hostReduceAdd_single _ red_caps]
  show Ideal.ofBits .f32 0x00000000#32 + _ = _
  rw [Ideal.ofBits_zero_f32, zero_add]
  exact Finset.sum_congr rfl fun o _ => congrArg x (lift_caps b n l o)

/-- The sum over the input capsules, from the zero word. -/
theorem reduceAdd_inputs (x : A4) (b : Fin 32) (o : Fin 64) (l : Fin 32) :
    Host.reduceAdd x (constant (F := Ideal) S_ .f32 0x00000000#32) reducesTo_S32x64x1152x32_S32x64x32_d2 h_S_ (ix3 b o l)
      = ∑ n : Fin 1152, x (ix4 b o n l) := by
  unfold Host.reduceAdd
  rw [Ideal.hostReduceAdd_def, Ideal.hostReduceAdd_single _ red_inputs]
  show Ideal.ofBits .f32 0x00000000#32 + _ = _
  rw [Ideal.ofBits_zero_f32, zero_add]
  exact Finset.sum_congr rfl fun n _ => congrArg x (lift_inputs b o l n)

/-- The sum over the output coordinate, from the zero word. -/
theorem reduceAdd_coord (x : A4) (b : Fin 32) (o : Fin 64) (n : Fin 1152) :
    Host.reduceAdd x (constant (F := Ideal) S_ .f32 0x00000000#32) reducesTo_S32x64x1152x32_S32x64x1152_d3 h_S_ (ix3 b o n)
      = ∑ l : Fin 32, x (ix4 b o n l) := by
  unfold Host.reduceAdd
  rw [Ideal.hostReduceAdd_def, Ideal.hostReduceAdd_single _ red_coord]
  show Ideal.ofBits .f32 0x00000000#32 + _ = _
  rw [Ideal.ofBits_zero_f32, zero_add]
  exact Finset.sum_congr rfl fun l _ => congrArg x (lift_coord b o n l)

/-- The sum over the output coordinate of one vector per capsule, from the zero word. -/
theorem reduceAdd_coord1 (x : A1) (b : Fin 32) (o : Fin 64) (z : Fin 1) :
    Host.reduceAdd x (constant (F := Ideal) S_ .f32 0x00000000#32) reducesTo_S32x64x1x32_S32x64x1_d3 h_S_ (ix3 b o z)
      = ∑ l : Fin 32, x (ix4 b o z l) := by
  unfold Host.reduceAdd
  rw [Ideal.hostReduceAdd_def, Ideal.hostReduceAdd_single _ red_coord1]
  show Ideal.ofBits .f32 0x00000000#32 + _ = _
  rw [Ideal.ofBits_zero_f32, zero_add]
  exact Finset.sum_congr rfl fun l _ => congrArg x (lift_coord1 b o z l)

/-- The maximum over the output capsules, from the word of -∞: the fold of `max` over the capsules. -/
theorem reduceMax_caps (x : A4) (b : Fin 32) (n : Fin 1152) (l : Fin 32) :
    Host.reduce FloatOps.maximumf x (constant (F := Ideal) S_ .f32 0xFF800000#32) reducesTo_S32x64x1152x32_S32x1152x32_d1 h_S_ (ix3 b n l)
      = (Finset.univ : Finset (Fin 64)).fold max Cert.Routing.negInf (fun o => x (ix4 b o n l)) := by
  rw [Host.reduce_eq_fold_single _ x _ _ red_caps]
  have hx : x ∘ red_caps.lift (ix3 b n l) = fun o : Fin 64 => x (ix4 b o n l) :=
    funext fun o => congrArg x (lift_caps b n l o)
  rw [hx]
  rfl

/-! ## The contraction at an index -/

/-- The contraction over the input coordinate has one axis, of extent 32. -/
theorem contr_rank : dot_S32x1152x32_S64x32x32_S32x1152x64x32_2_2_01_01_n_n.contr.rank = 1 := rfl
theorem contr_size :
    dot_S32x1152x32_S64x32x32_S32x1152x64x32_2_2_01_01_n_n.contr.size ⟨0, by rw [contr_rank]; exact Nat.one_pos⟩ = 32 := rfl

/-- The contraction's index set is the input coordinate's range. -/
abbrev contrE : dot_S32x1152x32_S64x32x32_S32x1152x64x32_2_2_01_01_n_n.contr.Idx ≃ Fin 32 :=
  contrEquiv1 dot_S32x1152x32_S64x32x32_S32x1152x64x32_2_2_01_01_n_n 32 contr_rank contr_size

/-- At result index (b, n, o, l) and input coordinate i the left operand is read at (b, n, i) … -/
theorem lhs_at (b : Fin 32) (n : Fin 1152) (o : Fin 64) (l : Fin 32) (i : Fin 32) :
    dot_S32x1152x32_S64x32x32_S32x1152x64x32_2_2_01_01_n_n.lhsIdx (ix4 b n o l) (contrE.symm i) = ix3 b n i := by
  funext a; apply Fin.ext
  match a with
  | ⟨0, _⟩ => rfl
  | ⟨1, _⟩ => rfl
  | ⟨2, _⟩ =>
    exact (DotDims.lhsIdx_val_of_single _ rfl _ _).trans
      (contrEquiv1_symm_val dot_S32x1152x32_S64x32x32_S32x1152x64x32_2_2_01_01_n_n 32 contr_rank contr_size i)

/-- … and the right operand at (o, l, i). -/
theorem rhs_at (b : Fin 32) (n : Fin 1152) (o : Fin 64) (l : Fin 32) (i : Fin 32) :
    dot_S32x1152x32_S64x32x32_S32x1152x64x32_2_2_01_01_n_n.rhsIdx (ix4 b n o l) (contrE.symm i) = ix3 o l i := by
  funext a; apply Fin.ext
  match a with
  | ⟨0, _⟩ => rfl
  | ⟨1, _⟩ => rfl
  | ⟨2, _⟩ =>
    exact (DotDims.rhsIdx_val_of_single _ rfl _ _).trans
      (contrEquiv1_symm_val dot_S32x1152x32_S64x32x32_S32x1152x64x32_2_2_01_01_n_n 32 contr_rank contr_size i)

/-- The prediction vectors at an index: the inner product over the input coordinate. -/
theorem priorsV_apply (X : FVec Ideal S32x1152x32 .f32) (W : FVec Ideal S64x32x32 .f32) (b : Fin 32) (o : Fin 64)
    (n : Fin 1152) (l : Fin 32) : priorsV X W (ix4 b o n l) = ∑ i : Fin 32, X (ix3 b n i) * W (ix3 o l i) := by
  unfold priorsV
  refine (transpose_apply _ _ _ (ix4 b o n l) (ix4 b n o l) fun a => by
    match a with
    | ⟨0, _⟩ => rfl
    | ⟨1, _⟩ => rfl
    | ⟨2, _⟩ => rfl
    | ⟨3, _⟩ => rfl).trans ?_
  simp only [Host.dotGeneral]
  rw [Ideal.dotGeneral_apply, ← Equiv.sum_comp contrE.symm]
  exact Finset.sum_congr rfl fun i _ => by rw [lhs_at, rhs_at]

/-! ## The stages at an index -/

theorem zeroV_apply (j : S32x64x1152x32.Idx) : zeroV j = 0 := Ideal.ofBits_zero_f32

theorem expShift_apply (L : A4) (b : Fin 32) (o : Fin 64) (n : Fin 1152) (l : Fin 32) :
    expShift L (ix4 b o n l) = Ideal.exp (L (ix4 b o n l) - Cert.Routing.shift (fun o' => L (ix4 b o' n l))) := by
  unfold expShift Host.exp
  rw [Ideal.hostUnary_exp_def, subf_apply, bc_caps, bc_insert1, maximumf_apply, reduceMax_caps]
  rfl

theorem weightedSum_apply (E P : A4) (b : Fin 32) (o : Fin 64) (z : Fin 1) (l : Fin 32) :
    weightedSum E P (ix4 b o z l)
      = ∑ n : Fin 1152, Ideal.div (E (ix4 b o n l)) (∑ o' : Fin 64, E (ix4 b o' n l)) * P (ix4 b o n l) := by
  unfold weightedSum
  rw [bc_keep2, reduceAdd_inputs]
  refine Finset.sum_congr rfl fun n _ => ?_
  rw [mulf_apply]
  unfold Host.divf
  rw [Ideal.hostDivf_def, bc_caps, bc_insert1, reduceAdd_caps]

theorem normSqV_apply (U : A1) (b : Fin 32) (o : Fin 64) (z z' : Fin 1) :
    normSqV U (ix4 b o z z') = ∑ k : Fin 32, U (ix4 b o 0 k) * U (ix4 b o 0 k) := by
  unfold normSqV
  rw [bc_keep3, reduceAdd_coord1]
  rfl

theorem squashV_apply (U : A1) (N : A0) (b : Fin 32) (o : Fin 64) (z : Fin 1) (l : Fin 32) :
    squashV U N (ix4 b o z l)
      = Ideal.div (U (ix4 b o z l) * Ideal.sqrt (N (ix4 b o 0 0))) (Cert.Routing.one + N (ix4 b o 0 0)) := by
  unfold squashV Host.divf
  rw [Ideal.hostDivf_def, mulf_apply, bc_coord, bc_coord, addf_apply]
  rfl

theorem nextLogits_apply (L P : A4) (S : A1) (b : Fin 32) (o : Fin 64) (n : Fin 1152) (l : Fin 32) :
    nextLogits L P S (ix4 b o n l) = L (ix4 b o n l) + ∑ k : Fin 32, P (ix4 b o n k) * S (ix4 b o 0 k) := by
  unfold nextLogits
  rw [addf_apply, bc_coord', bc_keep3', reduceAdd_coord]
  refine congrArg (L (ix4 b o n l) + ·) (Finset.sum_congr rfl fun k _ => ?_)
  rw [mulf_apply, bc_inputs]

/-! ## One round, over arrays that read given functions

The three rounds run the same stages on different logits; each is stated once, over any arrays `L`, `P`, `U`, `S`
that read functions `Lf`, `Pf`, `Uf`, `Sf` of the coordinates (the logits do not depend on the output coordinate,
the per-capsule vectors sit at input-capsule coordinate 0). -/

/-- The softmax-weighted sum of a round: the coupling coefficient first, then the prediction. -/
theorem round_apply (L P : A4) (Lf : Fin 32 → Fin 64 → Fin 1152 → EReal)
    (Pf : Fin 32 → Fin 64 → Fin 32 → Fin 1152 → EReal)
    (hL : ∀ b o n l, L (ix4 b o n l) = Lf b o n) (hP : ∀ b o n l, P (ix4 b o n l) = Pf b o l n)
    (b : Fin 32) (o : Fin 64) (l : Fin 32) :
    weightedSum (expShift L) P (ix4 b o 0 l)
      = ∑ n : Fin 1152, Cert.Routing.coupling (fun o' => Lf b o' n) o * Pf b o l n := by
  rw [weightedSum_apply]
  refine Finset.sum_congr rfl fun n _ => ?_
  rw [hP]
  refine congrArg (· * Pf b o l n) ?_
  unfold Cert.Routing.coupling
  simp only [expShift_apply, hL]

/-- The squashed vector of a round. -/
theorem squash_apply (U : A1) (Uf : Fin 32 → Fin 64 → Fin 32 → EReal) (hU : ∀ b o l, U (ix4 b o 0 l) = Uf b o l)
    (b : Fin 32) (o : Fin 64) (l : Fin 32) :
    squashV U (normSqV U) (ix4 b o 0 l) = Cert.Routing.squash (Uf b o) l := by
  rw [squashV_apply, normSqV_apply]
  simp only [hU]
  rfl

/-- The logits after a round: the earlier logits plus the agreement (the factors of each product commuted). -/
theorem next_apply (L P : A4) (S : A1) (Lf : Fin 32 → Fin 64 → Fin 1152 → EReal)
    (Pf : Fin 32 → Fin 64 → Fin 32 → Fin 1152 → EReal) (Sf : Fin 32 → Fin 64 → Fin 32 → EReal)
    (hL : ∀ b o n l, L (ix4 b o n l) = Lf b o n) (hP : ∀ b o n l, P (ix4 b o n l) = Pf b o l n)
    (hS : ∀ b o l, S (ix4 b o 0 l) = Sf b o l) (b : Fin 32) (o : Fin 64) (n : Fin 1152) (l : Fin 32) :
    nextLogits L P S (ix4 b o n l) = Lf b o n + Cert.Routing.agree (Sf b) (Pf b) o n := by
  rw [nextLogits_apply, hL]
  refine congrArg (Lf b o n + ·) ?_
  unfold Cert.Routing.agree
  exact Finset.sum_congr rfl fun k _ => by rw [hP, hS, mul_comm]

/-! ## The three rounds of the reference -/

section Rounds
variable (V0 : Valuation τ sig (Elt Ideal))

/-- Batch element `b`'s prediction vectors, as the routing function takes them from the two argument arrays. -/
def Pb (b : Fin 32) : Fin 64 → Fin 32 → Fin 1152 → EReal :=
  Cert.Routing.priors (fun n i => (V0 (Proc.devRef .tc main_arg0) : FVec Ideal S32x1152x32 .f32) (ix3 b n i))
    (fun o l i => (V0 (Proc.devRef .tc main_arg1) : FVec Ideal S64x32x32 .f32) (ix3 o l i))

theorem v1_at (b : Fin 32) (o : Fin 64) (n : Fin 1152) (l : Fin 32) :
    res_main_v1 (F := Ideal) V0 (ix4 b o n l) = Pb V0 b o l n := by
  rw [v1_eq, priorsV_apply]
  unfold Pb Cert.Routing.priors
  show (_ : EReal) = _
  exact Finset.sum_congr rfl fun i _ => mul_comm (_ : EReal) _

theorem v2_at (b : Fin 32) (o : Fin 64) (n : Fin 1152) (l : Fin 32) :
    res_main_v2 (F := Ideal) V0 (ix4 b o n l) = (fun _ _ _ => (0 : EReal)) b o n := by
  rw [v2_eq]; exact zeroV_apply _

/-- Round one: at zero logits the weighted sum is the plain sum times 1/64. -/
theorem v16_at (b : Fin 32) (o : Fin 64) (l : Fin 32) :
    res_main_v16 (F := Ideal) V0 (ix4 b o 0 l) = Cert.Routing.out0 (Pb V0 b) o l := by
  rw [v16_eq, v9_eq, round_apply _ _ _ (Pb V0) (v2_at V0) (v1_at V0)]
  exact Cert.Routing.weighted_zero (Pb V0 b) o l

theorem s1_at (b : Fin 32) (o : Fin 64) (l : Fin 32) :
    squashV (res_main_v16 (F := Ideal) V0) (res_main_v19 V0) (ix4 b o 0 l)
      = (fun b o l => Cert.Routing.squash (Cert.Routing.out0 (Pb V0 b) o) l) b o l := by
  rw [v19_eq]
  exact squash_apply _ (fun b o l => Cert.Routing.out0 (Pb V0 b) o l) (v16_at V0) b o l

theorem v32_at (b : Fin 32) (o : Fin 64) (n : Fin 1152) (l : Fin 32) :
    res_main_v32 (F := Ideal) V0 (ix4 b o n l) = (fun b => Cert.Routing.logits1 (Pb V0 b)) b o n := by
  rw [v32_eq, next_apply _ _ _ _ (Pb V0) _ (v2_at V0) (v1_at V0) (s1_at V0)]
  show (0 : EReal) + _ = _
  rw [zero_add]
  rfl

/-- Round two. -/
theorem v46_at (b : Fin 32) (o : Fin 64) (l : Fin 32) :
    res_main_v46 (F := Ideal) V0 (ix4 b o 0 l) = Cert.Routing.out1 (Pb V0 b) o l := by
  rw [v46_eq, v39_eq, round_apply _ _ _ (Pb V0) (v32_at V0) (v1_at V0)]
  unfold Cert.Routing.out1 Cert.Routing.weighted
  show (_ : EReal) = _
  exact Finset.sum_congr rfl fun n _ => mul_comm (_ : EReal) _

theorem s2_at (b : Fin 32) (o : Fin 64) (l : Fin 32) :
    squashV (res_main_v46 (F := Ideal) V0) (res_main_v49 V0) (ix4 b o 0 l)
      = (fun b o l => Cert.Routing.squash (Cert.Routing.out1 (Pb V0 b) o) l) b o l := by
  rw [v49_eq]
  exact squash_apply _ (fun b o l => Cert.Routing.out1 (Pb V0 b) o l) (v46_at V0) b o l

theorem v62_at (b : Fin 32) (o : Fin 64) (n : Fin 1152) (l : Fin 32) :
    res_main_v62 (F := Ideal) V0 (ix4 b o n l) = (fun b => Cert.Routing.logits2 (Pb V0 b)) b o n := by
  rw [v62_eq, next_apply _ _ _ _ (Pb V0) _ (v32_at V0) (v1_at V0) (s2_at V0)]
  rfl

/-- Round three. -/
theorem v76_at (b : Fin 32) (o : Fin 64) (l : Fin 32) :
    res_main_v76 (F := Ideal) V0 (ix4 b o 0 l) = Cert.Routing.out2 (Pb V0 b) o l := by
  rw [v76_eq, v69_eq, round_apply _ _ _ (Pb V0) (v62_at V0) (v1_at V0)]
  unfold Cert.Routing.out2 Cert.Routing.weighted
  show (_ : EReal) = _
  exact Finset.sum_congr rfl fun n _ => mul_comm (_ : EReal) _

/-- The routed capsules: round three's output, squashed. -/
theorem s3_at (b : Fin 32) (o : Fin 64) (l : Fin 32) :
    squashV (res_main_v76 (F := Ideal) V0) (res_main_v79 V0) (ix4 b o 0 l) = Cert.Routing.route (Pb V0 b) o l := by
  rw [v79_eq]
  exact squash_apply _ (fun b o l => Cert.Routing.out2 (Pb V0 b) o l) (v76_at V0) b o l

end Rounds

/-! ## The result -/

/-- The reference's result term, at the ideal values, is the routing function of the two argument arrays: the
    final reshape [32,64,1,32] to [32,64,32] reads (b, o, 0, l) at (b, o, l), where the squashed output of round
    three sits. -/
theorem result_eq (V0 : Valuation τ sig (Elt Ideal)) :
    shapeCast _ (Host.divf (mulf (res_main_v76 V0) (broadcastInDim S32x64x1x32 ![0, 1, 2, 3] bcast_S32x64x1x1_S32x64x1x32_0_1_2_3 (Host.sqrt (res_main_v79 V0)))) (broadcastInDim S32x64x1x32 ![0, 1, 2, 3] bcast_S32x64x1x1_S32x64x1x32_0_1_2_3 (addf (broadcastInDim S32x64x1x1 ![] bcast_S_S32x64x1x1 (constant S_ .f32 0x3F800000#32)) (res_main_v79 V0)))) shapeCasts_S32x64x1x32_S32x64x32
      = Cert.Routing.G (V0 (Proc.devRef .tc main_arg0)) (V0 (Proc.devRef .tc main_arg1)) := by
  funext j
  obtain ⟨b, o, l, rfl⟩ : ∃ b o l, j = ix3 b o l := ⟨j 0, j 1, j 2, eq_ix3 j⟩
  refine (shapeCast_apply (squashV (res_main_v76 (F := Ideal) V0) (res_main_v79 V0)) shapeCasts_S32x64x1x32_S32x64x32
    (ix3 b o l) (ix4 b o 0 l) ?_).trans ?_
  · rw [Shape.rowMajor_val_four, Shape.rowMajor_val_three]
    show ((b.val * 64 + o.val) * 1 + 0) * 32 + l.val = (b.val * 64 + o.val) * 32 + l.val
    omega
  · rw [s3_at]
    rfl

end Cert.ReferenceIdeal.RefValue

end
-- ==== Proof.lean ====
/-
  Three rounds of dynamic routing between capsules: a Pallas kernel against its jnp reference, equal as extended
  reals.

  Both programs form, for every batch element, the prediction vectors `P o l n = Σ_i W o l i · X n i` and take three
  routing rounds over them (Proof/Routing.lean states the rounds as one function `G` of the two argument arrays).
  They differ in three ways, none of which changes a value on the extended reals:
  * the kernel works on one batch element per grid point, with the predictions parked in a scratch buffer, where the
    reference works on all batch elements at once with logits that carry a useless trailing axis;
  * every product of two factors is taken in the opposite order (commutativity), and the contractions are matrix
    products in the kernel where the reference multiplies and sums (at the ideal values both are the plain sum);
  * in the first round the logits are zero: the reference still takes the softmax, the kernel multiplies the plain sum
    by 1/64 — equal because exp 0 = 1, the sixty-four ones sum to 64, and a nonnegative real factor moves across a
    finite sum of extended reals whatever infinities the sum holds.
  So neither side needs the inputs to be finite, and the precondition is never opened.

  The kernel's side: Proof/BodyTerm.lean (the stored block as a pure term of the two input blocks),
  Proof/BodyProducts.lean, Proof/BodyStages.lean, Proof/BodyRounds.lean (that term at an index is the routing
  function), Proof/KernelValue.lean (the 32 blocks tile the result). The reference's side: Proof/RefValue.lean.
  The three frames are the generated ones; the ideal pass rewrote nothing, so `preserves` is `True`.
-/
import proofs.«173284_j6184752906707_2_alg».proof.Defs
import proofs.«173284_j6184752906707_2_alg».proof.Proof.Gen.Kernel
import proofs.«173284_j6184752906707_2_alg».proof.Proof.Gen.Kernel.Skeleton
import proofs.«173284_j6184752906707_2_alg».proof.Proof.Gen.Kernel.Launch
import proofs.«173284_j6184752906707_2_alg».proof.Proof.Gen.Kernel.Points
import proofs.«173284_j6184752906707_2_alg».proof.Proof.Gen.Kernel.Frame
import proofs.«173284_j6184752906707_2_alg».proof.Proof.Gen.KernelIdeal
import proofs.«173284_j6184752906707_2_alg».proof.Proof.Gen.KernelIdeal.Skeleton
import proofs.«173284_j6184752906707_2_alg».proof.Proof.Gen.KernelIdeal.Launch
import proofs.«173284_j6184752906707_2_alg».proof.Proof.Gen.KernelIdeal.Points
import proofs.«173284_j6184752906707_2_alg».proof.Proof.Gen.KernelIdeal.Frame
import proofs.«173284_j6184752906707_2_alg».proof.Proof.Gen.ReferenceIdeal
import proofs.«173284_j6184752906707_2_alg».proof.Proof.Gen.KernelIdeal.Value
import proofs.«173284_j6184752906707_2_alg».proof.Proof.Gen.ReferenceIdeal.Run
import proofs.«173284_j6184752906707_2_alg».proof.Proof.Gen.Pre_finite_inputs
import proofs.«173284_j6184752906707_2_alg».proof.Proof.KernelValue
import proofs.«173284_j6184752906707_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at the routing function `G` of the
    arguments: the kernel block by block, the reference operation by operation. -/
theorem algebraic : Cert.algebraic_KernelIdeal_ReferenceIdeal := by
  intro m ρ m' ρ' _ hagree
  refine ⟨fun c => Cert.Routing.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.RefValue.result_eq _).trans (congrArg₂ Cert.Routing.G (hagree c).1 (hagree c).2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
